-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S100000x128 : Shape := ⟨2, ![100000, 128]⟩
abbrev S800000 : Shape := ⟨1, ![800000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg18 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_v63 main_v67

def fn_part2 {F : FTy → Type} [FloatOps F] (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_v48 main_v49 main_v50

def fn_part1 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S400000x128 .f32) (main_arg1 : FVec F S100000x128 .f32) (main_arg2 : FVec F S800000 .f32) (main_arg3 : IVec S400000 32) (main_arg4 : IVec S400000 32) (main_arg5 : IVec S800000 32) (main_arg6 : IVec S800000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S400000x128 : Shape := ⟨2, ![400000, 128]⟩
abbrev S100000x128 : Shape := ⟨2, ![100000, 128]⟩
abbrev S800000 : Shape := ⟨1, ![800000]⟩
abbrev S400000 : Shape := ⟨1, ![400000]⟩
abbrev S128x128 : Shape := ⟨2, ![128, 128]⟩
abbrev S128 : Shape := ⟨1, ![128]⟩
abbrev S_ : Shape := ⟨0, ![]⟩
abbrev S400000x1 : Shape := ⟨2, ![400000, 1]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S800000x1 : Shape := ⟨2, ![800000, 1]⟩
abbrev S800000x128 : Shape := ⟨2, ![800000, 128]⟩

abbrev nBuf : Space → Nat
  | .hbm => 112
  | .vmem => 30
  | .smem => 0
  | _ => 0

abbrev bufTy : (tb : Table) → Fin (tcTables nBuf tb) → BufTy
  | .hbm, ⟨0, _⟩ => ⟨S400000x128, .f32⟩
  | .hbm, ⟨1, _⟩ => ⟨S100000x128, .f32⟩
  | .hbm, ⟨2, _⟩ => ⟨S800000, .f32⟩
  | .hbm, ⟨3, _⟩ => ⟨S400000, .i32⟩
  | .hbm, ⟨4, _⟩ => ⟨S400000, .i32⟩
  | .hbm, ⟨5, _⟩ => ⟨S800000, .i32⟩
  | .hbm, ⟨6, _⟩ => ⟨S800000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S_, .f32⟩
  | .hbm, ⟨29, _⟩ => ⟨S100000x128, .f32⟩
  | .hbm, ⟨30, _⟩ => ⟨S400000x1, .i32⟩
  | .hbm, ⟨31, _⟩ => ⟨S100000x128, .f32⟩
  | .hbm, ⟨32, _⟩ => ⟨S_, .f32⟩
  | .hbm, ⟨33, _⟩ => ⟨S400000, .f32⟩
  | .hbm, ⟨34, _⟩ => ⟨S_, .f32⟩
  | .hbm, ⟨35, _⟩ => ⟨S100000, .f32⟩
  | .hbm, ⟨36, _⟩ => ⟨S400000x1, .i32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S100000x128, .f32⟩
  | .hbm, ⟨63, _⟩ => ⟨S800000x1, .i32⟩
  | .hbm, ⟨64, _⟩ => ⟨S100000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S100000, .f32⟩
  | .hbm, ⟨69, _⟩ => ⟨S800000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S400000, .i32⟩
  | .hbm, ⟨84, _⟩ => ⟨S400000, .i1⟩
  | .hbm, ⟨85, _⟩ => ⟨S_, .i32⟩
  | .hbm, ⟨86, _⟩ => ⟨S400000, .i32⟩
  | .hbm, ⟨87, _⟩ => ⟨S400000, .i32⟩
  | .hbm, ⟨88, _⟩ => ⟨S400000, .i32⟩
  | .hbm, ⟨89, _⟩ => ⟨S400000x1, .i32⟩
  | .hbm, ⟨90, _⟩ => ⟨S400000x128, .f32⟩
  | .hbm, ⟨91, _⟩ => ⟨S_, .f32⟩
  | .hbm, ⟨92, _⟩ => ⟨S400000x128, .f32⟩
  | .hbm, ⟨93, _⟩ => ⟨S400000x1, .i32⟩
  | .hbm, ⟨94, _⟩ => ⟨S400000x128, .f32⟩
  | .hbm, ⟨95, _⟩ => ⟨S_, .f32⟩
  | .hbm, ⟨96, _⟩ => ⟨S400000, .f32⟩
  | .hbm, ⟨97, _⟩ => ⟨S_, .f32⟩
  | .hbm, ⟨98, _⟩ => ⟨S400000, .f32⟩
  | .hbm, ⟨99, _⟩ => ⟨S400000x1, .i32⟩
  | .hbm, ⟨100, _⟩ => ⟨S400000, .f32⟩
  | .hbm, ⟨101, _⟩ => ⟨S_, .f32⟩
  | .hbm, ⟨102, _⟩ => ⟨S_, .f32⟩
  | .hbm, ⟨103, _⟩ => ⟨S400000, .f32⟩
  | .hbm, ⟨104, _⟩ => ⟨S400000, .f32⟩
  | .hbm, ⟨105, _⟩ => ⟨S400000x1, .f32⟩
  | .hbm, ⟨106, _⟩ => ⟨S400000x128, .f32⟩
  | .hbm, ⟨107, _⟩ => ⟨S400000x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S400000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_10 : Ref sig .tc := ⟨.hbm, 82, rfl⟩
abbrev main_v47 : Ref sig .tc := ⟨.hbm, 83, rfl⟩
abbrev main_v48 : Ref sig .tc := ⟨.hbm, 84, rfl⟩
abbrev main_c_11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_13 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  gather_S400000x128_S400000x1_S400000x128_1_0_n_n_0_1_1128_wf : GatherDims.WF S400000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S4000x128_S128x128_S4000x128_1_0_0_1_n_n_wf : DotDims.WF S4000x128 S128x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S400000x1_S400000x128_1_0_n_n_0_1_1128_wf : GatherDims.WF S100000x128 S400000x1 S400000x128 [1] [0] [] [0] [] 1 ![1, 128]
  scatter_S400000x128_S400000x1_S400000x128_1_0_0_1_wf : ScatterDims.WF S400000x128 S400000x1 S400000x128 [1] [0] [0] 1
  scatter_S400000_S400000x1_S400000_n_0_0_1_wf : ScatterDims.WF S400000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S400000x128.size a
  hwx2_6 : ∀ i : grid2.Coords, EltTy.bits .f32 = 32 ∨ (Rect.block (s := S400000x128) S4000x128.size (cc2_transform_6 i) (hinb2_6 i)).WholeWords (EltTy.packing .f32)

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def scatter_S400000_S400000x1_S400000_n_0_0_1 : ScatterDims S400000 S400000x1 S400000 where
  updateWindowDims := []
  insertedWindowDims := [0]
  scatterDimsToOperandDims := [0]
  indexVectorDim := 1
  wf := scatter_S400000_S400000x1_S400000_n_0_0_1_wf

abbrev win0_0 : Pipeline.Window sig grid0 :=
  Pipeline.Window.ofSpec (Memref.whole main_v17) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S400000x128 : Shape := ⟨2, ![400000, 128]⟩
abbrev S100000x128 : Shape := ⟨2, ![100000, 128]⟩
abbrev S800000 : Shape := ⟨1, ![800000]⟩
abbrev S400000 : Shape := ⟨1, ![400000]⟩
abbrev S128x128 : Shape := ⟨2, ![128, 128]⟩
abbrev S128 : Shape := ⟨1, ![128]⟩
abbrev S_ : Shape := ⟨0, ![]⟩
abbrev S400000x1 : Shape := ⟨2, ![400000, 1]⟩
abbrev S100000 : Shape := ⟨1, ![100000]⟩
abbrev S100000x1 : Shape := ⟨2, ![100000, 1]⟩
abbrev S1x128 : Shape := ⟨2, ![1, 128]⟩
abbrev S800000x1 : Shape := ⟨2, ![800000, 1]⟩
abbrev S800000x128 : Shape := ⟨2, ![800000, 128]⟩

abbrev nBuf : Space → Nat
  | .hbm => 211
  | .vmem => 0
  | .smem => 0
  | _ => 0

abbrev hbmTy0_0 (i : Nat) : BufTy := match i % 128 with
  | 0 => ⟨S400000x128, .f32⟩
  | 1 => ⟨S100000x128, .f32⟩
  | 2 => ⟨S800000, .f32⟩
  | 3 => ⟨S400000, .i32⟩
  | 4 => ⟨S400000, .i32⟩
  | 5 => ⟨S800000, .i32⟩
  | 6 => ⟨S800000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .f32⟩
  | 29 => ⟨S100000x128, .f32⟩
  | 30 => ⟨S400000x1, .i32⟩
  | 31 => ⟨S100000x128, .f32⟩
  | 32 => ⟨S_, .f32⟩
  | 33 => ⟨S400000, .f32⟩
  | 34 => ⟨S_, .f32⟩
  | 35 => ⟨S100000, .f32⟩
  | 36 => ⟨S400000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S_, .f32⟩
  | 68 => ⟨S100000x1, .f32⟩
  | 69 => ⟨S100000x1, .f32⟩
  | 70 => ⟨S100000x1, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x1, .f32⟩
  | 92 => ⟨S800000x128, .f32⟩
  | 93 => ⟨S800000x128, .f32⟩
  | 94 => ⟨S_, .f32⟩
  | 95 => ⟨S100000x128, .f32⟩
  | 96 => ⟨S800000x1, .i32⟩
  | 97 => ⟨S100000x128, .f32⟩
  | 98 => ⟨S_, .f32⟩
  | 99 => ⟨S800000, .f32⟩
  | 100 => ⟨S_, .f32⟩
  | 101 => ⟨S100000, .f32⟩
  | 102 => ⟨S800000x1, .i32⟩
  | 103 => ⟨S100000, .f32⟩
  | 104 => ⟨S_, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S100000x128, .f32⟩
  | 125 => ⟨S_, .f32⟩
  | 126 => ⟨S100000, .f32⟩
  | 127 => ⟨S100000x1, .f32⟩
  | _ => ⟨S400000x128, .f32⟩

abbrev hbmTy0_1 (i : Nat) : BufTy := match i % 128 with
  | 0 => ⟨S_, .f32⟩
  | 1 => ⟨S100000x1, .f32⟩
  | 2 => ⟨S100000x1, .f32⟩
  | 3 => ⟨S100000x128, .f32⟩
  | 4 => ⟨S100000x128, .f32⟩
  | 5 => ⟨S_, .f32⟩
  | 6 => ⟨S100000x1, .f32⟩
  | 7 => ⟨S100000x1, .f32⟩
  | 8 => ⟨S100000x1, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .f32⟩
  | 30 => ⟨S400000x128, .f32⟩
  | 31 => ⟨S400000x1, .i32⟩
  | 32 => ⟨S400000x128, .f32⟩
  | 33 => ⟨S_, .f32⟩
  | 34 => ⟨S400000, .f32⟩
  | 35 => ⟨S_, .f32⟩
  | 36 => ⟨S400000, .f32⟩
  | 37 => ⟨S400000x1, .i32⟩
  | 38 => ⟨S400000, .f32⟩
  | 39 => ⟨S_, .f32⟩
  | 40 => ⟨S_, .f32⟩
  | 41 => ⟨S400000, .f32⟩
  | 42 => ⟨S400000, .f32⟩
  | 43 => ⟨S400000x1, .f32⟩
  | 44 => ⟨S400000x128, .f32⟩
  | 45 => ⟨S400000x128, .f32⟩
  | 46 => ⟨S400000x128, .f32⟩
  | 47 => ⟨S1x128, .f32⟩
  | 48 => ⟨S400000x128, .f32⟩
  | 49 => ⟨S400000x128, .f32⟩
  | 50 => ⟨S400000x128, .f32⟩
  | 51 => ⟨S_, .f32⟩
  | 52 => ⟨S400000, .f32⟩
  | 53 => ⟨S400000x1, .f32⟩
  | 54 => ⟨S_, .f32⟩
  | 55 => ⟨S400000x1, .f32⟩
  | 56 => ⟨S400000x1, .f32⟩
  | 57 => ⟨S400000x128, .f32⟩
  | 58 => ⟨S400000x128, .f32⟩
  | 59 => ⟨S400000x128, .f32⟩
  | 60 => ⟨S_, .f32⟩
  | 61 => ⟨S400000, .f32⟩
  | 62 => ⟨S400000x1, .f32⟩
  | 63 => ⟨S_, .f32⟩
  | 64 => ⟨S400000x1, .f32⟩
  | 65 => ⟨S400000x1, .f32⟩
  | 66 => ⟨S400000x128, .f32⟩
  | 67 => ⟨S400000x128, .f32⟩
  | 68 => ⟨S_, .f32⟩
  | 69 => ⟨S400000x1, .f32⟩
  | 70 => ⟨S400000x1, .f32⟩
  | 71 => ⟨S400000x1, .f32⟩
  | 72 => ⟨S400000x128, .f32⟩
  | 73 => ⟨S400000x128, .f32⟩
  | 74 => ⟨S1x128, .f32⟩
  | 75 => ⟨S400000x128, .f32⟩
  | 76 => ⟨S400000x128, .f32⟩
  | 77 => ⟨S1x128, .f32⟩
  | 78 => ⟨S400000x128, .f32⟩
  | 79 => ⟨S400000x128, .f32⟩
  | 80 => ⟨S_, .f32⟩
  | 81 => ⟨S400000x128, .f32⟩
  | 82 => ⟨S400000x128, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_cst : Ref sig .tc := ⟨.hbm, 79, rfl⟩
abbrev main_call1_v0 : Ref sig .tc := ⟨.hbm, 80, rfl⟩
abbrev main_v47 : Ref sig .tc := ⟨.hbm, 81, rfl⟩
abbrev main_c_9 : Ref sig .tc := ⟨.hbm, 82, rfl⟩
abbrev main_v48 : Ref sig .tc := ⟨.hbm, 83, rfl⟩
abbrev main_v49 : Ref sig .tc := ⟨.hbm, 84, rfl⟩
abbrev main_c_10 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_cst_13 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_14 : Ref sig .tc := ⟨.hbm, 104, rfl⟩
abbrev main_call2_v0 : Ref sig .tc := ⟨.hbm, 105, rfl⟩
abbrev main_call2_v1 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_v75 : Ref sig .tc := ⟨.hbm, 118, rfl⟩
abbrev main_cst_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_17 : Ref sig .tc := ⟨.hbm, 125, rfl⟩
abbrev main_v81 : Ref sig .tc := ⟨.hbm, 126, rfl⟩
abbrev main_v82 : Ref sig .tc := ⟨.hbm, 127, rfl⟩
abbrev main_cst_18 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_19 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call3_cst : Ref sig .tc := ⟨.hbm, 145, rfl⟩
abbrev main_call3_v0 : Ref sig .tc := ⟨.hbm, 146, rfl⟩
abbrev main_v98 : Ref sig .tc := ⟨.hbm, 147, rfl⟩
abbrev main_c_20 : Ref sig .tc := ⟨.hbm, 148, rfl⟩
abbrev main_v99 : Ref sig .tc := ⟨.hbm, 149, rfl⟩
abbrev main_v100 : Ref sig .tc := ⟨.hbm, 150, rfl⟩
abbrev main_c_21 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_22 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_cst_24 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_25 : Ref sig .tc := ⟨.hbm, 167, rfl⟩
abbrev main_call4_v0 : Ref sig .tc := ⟨.hbm, 168, rfl⟩
abbrev main_call4_v1 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_26 : Ref sig .tc := ⟨.hbm, 179, rfl⟩
abbrev main_v122 : Ref sig .tc := ⟨.hbm, 180, rfl⟩
abbrev main_v123 : Ref sig .tc := ⟨.hbm, 181, rfl⟩
abbrev main_cst_27 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_28 : Ref sig .tc := ⟨.hbm, 188, rfl⟩
abbrev main_v129 : Ref sig .tc := ⟨.hbm, 189, rfl⟩
abbrev main_v130 : Ref sig .tc := ⟨.hbm, 190, rfl⟩
abbrev main_cst_29 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_30 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call5_cst : Ref sig .tc := ⟨.hbm, 208, rfl⟩
abbrev main_call5_v0 : Ref sig .tc := ⟨.hbm, 209, rfl⟩
abbrev main_v146 : Ref sig .tc := ⟨.hbm, 210, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  bcast_S1x128_S400000x128_0_1 : S1x128.BroadcastsInDim S400000x128 (![0, 1] : Fin 2 → Fin S400000x128.rank)
  reducesTo_S400000x128_S400000_d1 : S400000x128.ReducesTo [1] S400000
  bcast_S_S400000x1 : S_.BroadcastsInDim S400000x1 (![] : Fin 0 → Fin S400000x1.rank)
  gather_S400000x128_S400000x1_S400000x128_1_0_n_n_0_1_1128_wf : GatherDims.WF S400000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S400000x1_S400000x128_1_0_n_n_0_1_1128_wf : GatherDims.WF S100000x128 S400000x1 S400000x128 [1] [0] [] [0] [] 1 ![1, 128]
  scatter_S400000x128_S400000x1_S400000x128_1_0_0_1_wf : ScatterDims.WF S400000x128 S400000x1 S400000x128 [1] [0] [0] 1
  scatter_S400000_S400000x1_S400000_n_0_0_1_wf : ScatterDims.WF S400000 S400000x1 S400000 [] [0] [0] 1
  dot_S400000x128_S128x128_S400000x128_1_0_0_1_n_n_wf : DotDims.WF S400000x128 S128x128 S400000x128 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def scatter_S400000_S400000x1_S400000_n_0_0_1 : ScatterDims S400000 S400000x1 S400000 where
  updateWindowDims := []
  insertedWindowDims := [0]
  scatterDimsToOperandDims := [0]
  indexVectorDim := 1
  wf := scatter_S400000_S400000x1_S400000_n_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.KernelRun.lean ====
/-
  The idealized kernel's run with its two results named.

  @main is twelve segments: three stretches of host operations, then a region, three times over. The contents of
  every buffer at each segment boundary are a fold from the launch memory: a stretch applies its operations, a region
  leaves each of its arrays at what its write-backs leave and every other buffer as it was. Every weakly fair execution
  terminates with every unscoped buffer at the last boundary's contents; read at the two result buffers, that is the
  value of the program, and read at an argument it is the launch contents, since nothing writes an argument.
-/
import proofs.«166734_j33260226740761_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the two result buffers at the last
    boundary's contents and every argument as launched. -/
theorem run : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_v46) = W12 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       h c _ (mem_uc main_v46 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.RunValue

end
-- ==== Proof.RowSpec.lean ====
/-
  One row of a dense layer followed by a residual sum, a layer normalisation and a rectifier, on the extended reals.

  For a row `a` of 128 aggregated features, a 128 x 128 weight matrix `w`, a bias `b`, the row `resid` it is added to,
  and a gain `g` and an offset `beta`:

      x c   = resid c + ((sum over k of a k * w k c) + b c)
      mu    = (sum over k of x k) / 128
      var   = (sum over k of (x k - mu) * (x k - mu)) / 128
      out c = max (((x c - mu) * rsqrt (var + eps)) * g c + beta c) 0

  with `/` the extended reals' quotient `Ideal.div`, `rsqrt` their `Ideal.rsqrt`, and 128, eps and 0 the values of the
  three float words. The grouping is the one both programs compute in; nothing here is assumed finite, and no law of
  the extended reals is used: the two programs are compared through this one term.
-/
import Idealize.ShloMosaic.PureOps.Ideal.Laws

noncomputable section

namespace FusedRows

open Idealize.ShloMosaic

/-- The word of 128.0, of the normalisation's epsilon, and of 0.0, as extended reals. -/
abbrev w128 : EReal := Ideal.ofBits .f32 0x43000000#32
abbrev wEps : EReal := Ideal.ofBits .f32 0x3727C5AC#32
abbrev wZero : EReal := Ideal.ofBits .f32 0x00000000#32

/-- The row the normalisation is applied to: the residual plus the dense layer of the aggregated row. -/
def pre (a : Fin 128 → EReal) (w : Fin 128 → Fin 128 → EReal) (b resid : Fin 128 → EReal) (c : Fin 128) : EReal :=
  resid c + ((∑ k : Fin 128, a k * w k c) + b c)

/-- The mean of a row of 128 entries. -/
def mean (x : Fin 128 → EReal) : EReal := Ideal.div (∑ k : Fin 128, x k) w128

/-- The normalised, scaled, shifted and rectified row. -/
def normRelu (x g beta : Fin 128 → EReal) (c : Fin 128) : EReal :=
  max (((x c - mean x) * Ideal.rsqrt (mean (fun k => (x k - mean x) * (x k - mean x)) + wEps)) * g c + beta c) wZero

/-- One output row of the fused stage. -/
def row (a : Fin 128 → EReal) (w : Fin 128 → Fin 128 → EReal) (b resid g beta : Fin 128 → EReal) (c : Fin 128) : EReal :=
  normRelu (pre a w b resid) g beta c

end FusedRows

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.KernelRows.lean ====
/-
  The three regions' arithmetic, read at a row and a column.

  Each region's body loads a block of 4000 aggregated rows `x0`, the 4000 rows `x1` they are added to, the whole
  128 x 128 weights `x2` and three 1 x 128 rows (bias `x3`, gain `x4`, offset `x5`), and stores one 4000 x 128 value.
  That value, at row `p` and column `q`, depends on row `p` of `x0` and `x1` only: it is `FusedRows.row` of those two
  rows, the weights and the three vectors. The matrix product into the zero accumulator is a plain sum of products,
  the two lane sums are plain sums, a change of float format is the identity, and every other operation acts entry by
  entry or copies an entry along an axis. The rows of a block do not mix: that is what lets the grid tile the rows.
-/
import proofs.«166734_j33260226740761_1_alg».proof.Proof.Gen.KernelIdeal.Skeleton
import proofs.«166734_j33260226740761_1_alg».proof.Proof.RowSpec
import proofs.«166734_j33260226740761_1_alg».proof.Proof.LibKeepdims
import proofs.«166734_j33260226740761_1_alg».proof.Proof.LibPlainDot
import Idealize.ShloMosaic.Lib.Pipeline.Value
import Idealize.ShloMosaic.Lib.ValueLayout

noncomputable section

namespace Cert.KernelIdeal.Rows

open Idealize.ShloMosaic Idealize.ShloMosaic.ValueIdx Cert.KernelIdeal Cert.KernelIdeal.Gen FusedRows

/-- The residual plus the dense layer of the block: the rows the normalisation is applied to. -/
def preVec (x0 x1 : Vec Ideal S4000x128 .f32) (x2 : Vec Ideal S128x128 .f32) (x3 : Vec Ideal S1x128 .f32) :
    FVec Ideal S4000x128 .f32 :=
  addf x1 (addf (matmul dot_S4000x128_S128x128_S4000x128_1_0_0_1_n_n none
      (truncf .bf16 (shapeCast S4000x128 x0 shapeCasts_S4000x128_S4000x128) bitsLt_bf16_f32) (truncf .bf16 x2 bitsLt_bf16_f32)
      (constant S4000x128 .f32 0x00000000#32))
    (broadcastTo S4000x128 (shapeCast S1x128 x3 shapeCasts_S1x128_S1x128) broadcasts_S1x128_S4000x128))

/-- The rows' means, as a column. -/
def muVec (X : FVec Ideal S4000x128 .f32) : FVec Ideal S4000x1 .f32 :=
  divf (shapeCast S4000x1 (multiReduction .add [1] S4000 X 0x00000000#32 reduces_S4000x128_S4000 (.inl rfl) rfl) shapeCasts_S4000_S4000x1)
    (broadcast S4000x1 (Scalar.ofBits .f32 0x43000000#32))

/-- Each entry less its row's mean. -/
def devVec (X : FVec Ideal S4000x128 .f32) : FVec Ideal S4000x128 .f32 :=
  subf X (broadcastTo S4000x128 (muVec X) broadcasts_S4000x1_S4000x128)

/-- The rows' variances, as a column. -/
def varVec (X : FVec Ideal S4000x128 .f32) : FVec Ideal S4000x1 .f32 :=
  divf (shapeCast S4000x1 (multiReduction .add [1] S4000 (mulf (devVec X) (devVec X)) 0x00000000#32 reduces_S4000x128_S4000 (.inl rfl) rfl) shapeCasts_S4000_S4000x1)
    (broadcast S4000x1 (Scalar.ofBits .f32 0x43000000#32))

/-- The normalised, scaled, shifted and rectified block. -/
def normVec (X : FVec Ideal S4000x128 .f32) (x4 x5 : Vec Ideal S1x128 .f32) : FVec Ideal S4000x128 .f32 :=
  maximumf (addf (mulf (mulf (devVec X)
        (broadcastTo S4000x128 (rsqrt (addf (varVec X) (broadcast S4000x1 (Scalar.ofBits .f32 0x3727C5AC#32)))) broadcasts_S4000x1_S4000x128))
      (broadcastTo S4000x128 (shapeCast S1x128 x4 shapeCasts_S1x128_S1x128) broadcasts_S1x128_S4000x128))
    (broadcastTo S4000x128 (shapeCast S1x128 x5 shapeCasts_S1x128_S1x128) broadcasts_S1x128_S4000x128))
    (broadcast S4000x128 (Scalar.ofBits .f32 0x00000000#32))

/-- The three bodies are this one composition (the second region's extra cast of `x1` to its own shape aside). -/
theorem pay0_eq (x0 x1 : Vec Ideal S4000x128 .f32) (x2 : Vec Ideal S128x128 .f32) (x3 x4 x5 : Vec Ideal S1x128 .f32) :
    k0_pay1 (F := Ideal) x0 x1 x2 x3 x4 x5 = normVec (preVec x0 x1 x2 x3) x4 x5 := rfl
theorem pay1_eq (x0 x1 : Vec Ideal S4000x128 .f32) (x2 : Vec Ideal S128x128 .f32) (x3 x4 x5 : Vec Ideal S1x128 .f32) :
    k1_pay1 (F := Ideal) (k1_pay2 x0 x1 x2 x3 x4 x5) k1_pay3
      = normVec (preVec x0 (shapeCast S4000x128 x1 shapeCasts_S4000x128_S4000x128) x2 x3) x4 x5 := rfl
theorem pay2_eq (x0 x1 : Vec Ideal S4000x128 .f32) (x2 : Vec Ideal S128x128 .f32) (x3 x4 x5 : Vec Ideal S1x128 .f32) :
    k2_pay1 (F := Ideal) x0 x1 x2 x3 x4 x5 = normVec (preVec x0 x1 x2 x3) x4 x5 := rfl

/-- A 1 x 128 row, cast to its own shape and copied down the rows, read at (p, q): its entry q. -/
theorem rowBcast_apply (v : Vec Ideal S1x128 .f32) (p : Fin 4000) (q : Fin 128) :
    broadcastTo S4000x128 (shapeCast S1x128 v shapeCasts_S1x128_S1x128) broadcasts_S1x128_S4000x128 (ix2 p q)
      = v (ix2 (0 : Fin 1) q) := by
  rw [shapeCast_self]
  exact broadcastTo_1b_ab_apply v broadcasts_S1x128_S4000x128 p q

/-- The dense layer plus the residual at (p, q): `FusedRows.pre` of row p. -/
theorem preVec_apply (x0 x1 : Vec Ideal S4000x128 .f32) (x2 : Vec Ideal S128x128 .f32) (x3 : Vec Ideal S1x128 .f32)
    (p : Fin 4000) (q : Fin 128) :
    preVec x0 x1 x2 x3 (ix2 p q)
      = pre (fun k => x0 (ix2 p k)) (fun k c => x2 (ix2 k c)) (fun c => x3 (ix2 (0 : Fin 1) c)) (fun c => x1 (ix2 p c)) q := by
  unfold preVec pre
  rw [addf_apply, addf_apply, rowBcast_apply, shapeCast_self]
  refine congrArg (fun s => x1 (ix2 p q) + (s + x3 (ix2 (0 : Fin 1) q))) ?_
  exact PlainDot.matmul_zero_apply 4000 128 128 none _ _ (ix2 p q)

/-- The mean column at (r, u): the mean of row r. -/
theorem muVec_apply (X : FVec Ideal S4000x128 .f32) (r : Fin 4000) (u : Fin 1) :
    muVec X (ix2 r u) = mean (fun k => X (ix2 r k)) := by
  unfold muVec mean
  rw [divf_apply]
  exact congrArg (fun s => Ideal.div s w128)
    (Keepdims.rowSumKeep_apply X 0x00000000#32 reduces_S4000x128_S4000 (.inl rfl) rfl shapeCasts_S4000_S4000x1 r u)

/-- The deviation at (p, q). -/
theorem devVec_apply (X : FVec Ideal S4000x128 .f32) (p : Fin 4000) (q : Fin 128) :
    devVec X (ix2 p q) = X (ix2 p q) - mean (fun k => X (ix2 p k)) := by
  unfold devVec
  rw [subf_apply, Keepdims.broadcastTo_a1_ab_apply, muVec_apply]

/-- The variance column at (r, u). -/
theorem varVec_apply (X : FVec Ideal S4000x128 .f32) (r : Fin 4000) (u : Fin 1) :
    varVec X (ix2 r u)
      = mean (fun k => (X (ix2 r k) - mean (fun k' => X (ix2 r k'))) * (X (ix2 r k) - mean (fun k' => X (ix2 r k')))) := by
  unfold varVec mean
  rw [divf_apply]
  refine congrArg (fun s => Ideal.div s w128) ?_
  refine (Keepdims.rowSumKeep_apply _ 0x00000000#32 reduces_S4000x128_S4000 (.inl rfl) rfl shapeCasts_S4000_S4000x1 r u).trans ?_
  refine Finset.sum_congr rfl fun k _ => ?_
  rw [mulf_apply, devVec_apply]
  rfl

/-- The block's value at (p, q): the normalised and rectified row p, at q. -/
theorem normVec_apply (X : FVec Ideal S4000x128 .f32) (x4 x5 : Vec Ideal S1x128 .f32) (p : Fin 4000) (q : Fin 128) :
    normVec X x4 x5 (ix2 p q)
      = normRelu (fun k => X (ix2 p k)) (fun c => x4 (ix2 (0 : Fin 1) c)) (fun c => x5 (ix2 (0 : Fin 1) c)) q := by
  unfold normVec normRelu
  rw [maximumf_apply, addf_apply, mulf_apply, mulf_apply, devVec_apply, rowBcast_apply, rowBcast_apply,
    Keepdims.broadcastTo_a1_ab_apply]
  show max (((X (ix2 p q) - mean fun k => X (ix2 p k)) * Ideal.rsqrt (varVec X (ix2 p (0 : Fin 1)) + wEps)) * x4 (ix2 (0 : Fin 1) q)
      + x5 (ix2 (0 : Fin 1) q)) wZero = _
  rw [varVec_apply]

/-- Region 0's and region 2's stored value at (p, q). -/
theorem pay0_apply (x0 x1 : Vec Ideal S4000x128 .f32) (x2 : Vec Ideal S128x128 .f32) (x3 x4 x5 : Vec Ideal S1x128 .f32)
    (p : Fin 4000) (q : Fin 128) :
    k0_pay1 (F := Ideal) x0 x1 x2 x3 x4 x5 (ix2 p q)
      = row (fun k => x0 (ix2 p k)) (fun k c => x2 (ix2 k c)) (fun c => x3 (ix2 (0 : Fin 1) c)) (fun c => x1 (ix2 p c))
          (fun c => x4 (ix2 (0 : Fin 1) c)) (fun c => x5 (ix2 (0 : Fin 1) c)) q := by
  rw [pay0_eq, normVec_apply]
  unfold row
  exact congrArg (fun f => normRelu f _ _ q) (funext fun k => preVec_apply x0 x1 x2 x3 p k)

theorem pay2_apply (x0 x1 : Vec Ideal S4000x128 .f32) (x2 : Vec Ideal S128x128 .f32) (x3 x4 x5 : Vec Ideal S1x128 .f32)
    (p : Fin 4000) (q : Fin 128) :
    k2_pay1 (F := Ideal) x0 x1 x2 x3 x4 x5 (ix2 p q)
      = row (fun k => x0 (ix2 p k)) (fun k c => x2 (ix2 k c)) (fun c => x3 (ix2 (0 : Fin 1) c)) (fun c => x1 (ix2 p c))
          (fun c => x4 (ix2 (0 : Fin 1) c)) (fun c => x5 (ix2 (0 : Fin 1) c)) q := by
  rw [pay2_eq, normVec_apply]
  unfold row
  exact congrArg (fun f => normRelu f _ _ q) (funext fun k => preVec_apply x0 x1 x2 x3 p k)

/-- Region 1's stored value at (p, q): the same row function (its cast of `x1` to its own shape is the identity). -/
theorem pay1_apply (x0 x1 : Vec Ideal S4000x128 .f32) (x2 : Vec Ideal S128x128 .f32) (x3 x4 x5 : Vec Ideal S1x128 .f32)
    (p : Fin 4000) (q : Fin 128) :
    k1_pay1 (F := Ideal) (k1_pay2 x0 x1 x2 x3 x4 x5) k1_pay3 (ix2 p q)
      = row (fun k => x0 (ix2 p k)) (fun k c => x2 (ix2 k c)) (fun c => x3 (ix2 (0 : Fin 1) c)) (fun c => x1 (ix2 p c))
          (fun c => x4 (ix2 (0 : Fin 1) c)) (fun c => x5 (ix2 (0 : Fin 1) c)) q := by
  rw [pay1_eq, shapeCast_self, normVec_apply]
  unfold row
  exact congrArg (fun f => normRelu f _ _ q) (funext fun k => preVec_apply x0 x1 x2 x3 p k)

end Cert.KernelIdeal.Rows

end
-- ==== Proof.StageSpec.lean ====
/-
  One fused stage on whole arrays.

  For M rows of 128 aggregated features `agg`, the M rows `resid` they are added to, a 128 x 128 weight matrix and a
  bias, a gain and an offset held as 1 x 128 rows, the stage's result at (r, c) is `FusedRows.row` of row r of `agg` and
  of `resid`, at c. Row r of the result depends on row r of the two inputs only, so any tiling of the rows computes it
  block by block.
-/
import proofs.«166734_j33260226740761_1_alg».proof.Proof.RowSpec
import Idealize.ShloMosaic.Lib.ValueIdx
import Idealize.ShloMosaic.Lib.ValueLayout

noncomputable section

namespace FusedRows

open Idealize.ShloMosaic Idealize.ShloMosaic.ValueIdx

/-- The stage on arrays of M rows. -/
def stage (M : ℕ) (agg resid : (⟨2, ![M, 128]⟩ : Shape).Idx → EReal) (w : (⟨2, ![128, 128]⟩ : Shape).Idx → EReal)
    (b g beta : (⟨2, ![1, 128]⟩ : Shape).Idx → EReal) : (⟨2, ![M, 128]⟩ : Shape).Idx → EReal :=
  fun i => row (fun k => agg (ix2 (i 0) k)) (fun k c => w (ix2 k c)) (fun c => b (ix2 (0 : Fin 1) c))
    (fun c => resid (ix2 (i 0) c)) (fun c => g (ix2 (0 : Fin 1) c)) (fun c => beta (ix2 (0 : Fin 1) c)) (i 1)

/-- The stage at given coordinates. -/
theorem stage_apply (M : ℕ) (agg resid : (⟨2, ![M, 128]⟩ : Shape).Idx → EReal) (w : (⟨2, ![128, 128]⟩ : Shape).Idx → EReal)
    (b g beta : (⟨2, ![1, 128]⟩ : Shape).Idx → EReal) (r : Fin M) (c : Fin 128) :
    stage M agg resid w b g beta (ix2 r c)
      = row (fun k => agg (ix2 r k)) (fun k c' => w (ix2 k c')) (fun c' => b (ix2 (0 : Fin 1) c'))
          (fun c' => resid (ix2 r c')) (fun c' => g (ix2 (0 : Fin 1) c')) (fun c' => beta (ix2 (0 : Fin 1) c')) c := rfl

/-- The stage with the bias, gain and offset given as 128-vectors. -/
def stageV (M : ℕ) (agg resid : (⟨2, ![M, 128]⟩ : Shape).Idx → EReal) (w : (⟨2, ![128, 128]⟩ : Shape).Idx → EReal)
    (b g beta : (⟨1, ![128]⟩ : Shape).Idx → EReal) : (⟨2, ![M, 128]⟩ : Shape).Idx → EReal :=
  fun i => row (fun k => agg (ix2 (i 0) k)) (fun k c => w (ix2 k c)) (fun c => b (ix1 c))
    (fun c => resid (ix2 (i 0) c)) (fun c => g (ix1 c)) (fun c => beta (ix1 c)) (i 1)

/-- A 128-vector cast to a 1 x 128 row has the vector's entries: the two forms of the stage agree. -/
theorem stage_rows (M : ℕ) (agg resid : (⟨2, ![M, 128]⟩ : Shape).Idx → EReal) (w : (⟨2, ![128, 128]⟩ : Shape).Idx → EReal)
    (b g beta : (⟨1, ![128]⟩ : Shape).Idx → EReal) (h : (⟨1, ![128]⟩ : Shape).ShapeCasts ⟨2, ![1, 128]⟩) :
    stage M agg resid w (shapeCast ⟨2, ![1, 128]⟩ b h) (shapeCast ⟨2, ![1, 128]⟩ g h) (shapeCast ⟨2, ![1, 128]⟩ beta h)
      = stageV M agg resid w b g beta := by
  funext i
  unfold stage stageV
  simp only [shapeCast_a_1a_apply]

end FusedRows

end
-- ==== Proof.KernelBlocks0.lean ====
/-
  Region 0: its result array as one function of the arrays it is entered with.

  The grid has 25 points; point t stages rows 4000 t .. 4000 t + 3999 of the aggregated array and of the array it is
  added to, the whole weights and the three 1 x 128 rows, and writes back rows 4000 t .. 4000 t + 3999 of the result.
  What it writes back is the body's value of those blocks, which row by row is `FusedRows.row`: so block t of the
  result is block t of `FusedRows.stage` of the whole arrays. The 25 blocks tile the 100000 rows (row r lies in block
  r / 4000), so after the region the result array is `FusedRows.stage` of the arrays as the region found them.
-/
import proofs.«166734_j33260226740761_1_alg».proof.Proof.Gen.KernelIdeal.Frame
import proofs.«166734_j33260226740761_1_alg».proof.Proof.KernelRows
import proofs.«166734_j33260226740761_1_alg».proof.Proof.StageSpec
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen FusedRows

variable (V : (c : Dev nD) → (b : Ref sig .tc) → Buf (Elt Ideal) ((c : Thread nD τ).loc b))

theorem hz : (![0, 0] : Fin 2 → Nat) = fun _ => 0 := funext fun a => by fin_cases a <;> rfl

/-- The stage's result of the arrays region 0 is entered with. -/
abbrev result (c : Dev nD) : S100000x128.Idx → EReal :=
  stage 100000 (V c main_v17) (V c main_arg1) (V c main_arg7) (V c main_v18) (V c main_v19) (V c main_v20)

/-- The printed index maps over the grid: the two row-tiled inputs and the output are at block row t, column block 0;
    the weights and the three rows are always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t, read at (p, k): the array's entry at row 4000 t + p. -/
theorem read0 (c : Dev nD) (t : Fin cfg0.N) (p : Fin 4000) (k : Fin 128) (hR : t.val * 4000 + p.val < 100000) :
    iblk0 V c 0 t (ix2 p k) = V c main_v17 (ix2 (⟨t.val * 4000 + p.val, hR⟩ : Fin 100000) k) := by
  obtain ⟨e00, e01, e10, e11, e20, e21, e30, e31, e40, e41, e50, e51, e60, e61⟩ := idx_facts t
  show V c main_v17 (((cfg0.win 0).blk t).view.emb (ix2 p k)) = _
  refine congrArg (V c main_v17) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- Window 1's block at point t, read at (p, k): the array's entry at row 4000 t + p. -/
theorem read1 (c : Dev nD) (t : Fin cfg0.N) (p : Fin 4000) (k : Fin 128) (hR : t.val * 4000 + p.val < 100000) :
    iblk0 V c 1 t (ix2 p k) = V c main_arg1 (ix2 (⟨t.val * 4000 + p.val, hR⟩ : Fin 100000) k) := by
  obtain ⟨e00, e01, e10, e11, e20, e21, e30, e31, e40, e41, e50, e51, e60, e61⟩ := idx_facts t
  show V c main_arg1 (((cfg0.win 1).blk t).view.emb (ix2 p k)) = _
  refine congrArg (V c main_arg1) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- Window 2's block is the whole weight matrix. -/
theorem read2 (c : Dev nD) (t : Fin cfg0.N) (k c' : Fin 128) :
    iblk0 V c 2 t (ix2 k c') = V c main_arg7 (ix2 k c') := by
  obtain ⟨e00, e01, e10, e11, e20, e21, e30, e31, e40, e41, e50, e51, e60, e61⟩ := idx_facts t
  show V c main_arg7 (((cfg0.win 2).blk t).view.emb (ix2 k c')) = _
  refine congrArg (V c main_arg7) (funext fun a => Fin.ext ?_)
  match a with
  | ⟨0, _⟩ => show win0_2.index t (0 : Fin 2) * 128 + 1 * k.val = k.val; omega
  | ⟨1, _⟩ => show win0_2.index t (1 : Fin 2) * 128 + 1 * c'.val = c'.val; omega

/-- Window 3's block is its whole 1 x 128 array. -/
theorem read3 (c : Dev nD) (t : Fin cfg0.N) (k : Fin 128) :
    iblk0 V c 3 t (ix2 (0 : Fin 1) k) = V c main_v18 (ix2 (0 : Fin 1) k) := by
  obtain ⟨e00, e01, e10, e11, e20, e21, e30, e31, e40, e41, e50, e51, e60, e61⟩ := idx_facts t
  show V c main_v18 (((cfg0.win 3).blk t).view.emb (ix2 (0 : Fin 1) k)) = _
  refine congrArg (V c main_v18) (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- Window 4's block is its whole 1 x 128 array. -/
theorem read4 (c : Dev nD) (t : Fin cfg0.N) (k : Fin 128) :
    iblk0 V c 4 t (ix2 (0 : Fin 1) k) = V c main_v19 (ix2 (0 : Fin 1) k) := by
  obtain ⟨e00, e01, e10, e11, e20, e21, e30, e31, e40, e41, e50, e51, e60, e61⟩ := idx_facts t
  show V c main_v19 (((cfg0.win 4).blk t).view.emb (ix2 (0 : Fin 1) k)) = _
  refine congrArg (V c main_v19) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

/-- Window 5's block is its whole 1 x 128 array. -/
theorem read5 (c : Dev nD) (t : Fin cfg0.N) (k : Fin 128) :
    iblk0 V c 5 t (ix2 (0 : Fin 1) k) = V c main_v20 (ix2 (0 : Fin 1) k) := by
  obtain ⟨e00, e01, e10, e11, e20, e21, e30, e31, e40, e41, e50, e51, e60, e61⟩ := idx_facts t
  show V c main_v20 (((cfg0.win 5).blk t).view.emb (ix2 (0 : Fin 1) k)) = _
  refine congrArg (V c main_v20) (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- The output block's entry (p, q) sits at row 4000 t + p, column q of the result array. -/
theorem emb6 (t : Fin cfg0.N) (p : Fin 4000) (q : Fin 128) (hR : t.val * 4000 + p.val < 100000) :
    ((cfg0.win 6).blk t).view.emb (ix2 p q) = ix2 (⟨t.val * 4000 + p.val, hR⟩ : Fin 100000) q := by
  obtain ⟨e00, e01, e10, e11, e20, e21, e30, e31, e40, e41, e50, e51, e60, e61⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 128 + 1 * q.val = q.val; omega

/-- The body's value of point t's blocks, at (p, q): the stage's result at row 4000 t + p, column q. -/
theorem body_eq (c : Dev nD) (t : Fin cfg0.N) (p : Fin 4000) (q : Fin 128) (hR : t.val * 4000 + p.val < 100000) :
    k0_pay1 (F := Ideal) (iblk0 V c 0 t) (iblk0 V c 1 t) (iblk0 V c 2 t) (iblk0 V c 3 t) (iblk0 V c 4 t) (iblk0 V c 5 t) (ix2 p q) = result V c (ix2 (⟨t.val * 4000 + p.val, hR⟩ : Fin 100000) q) := by
  refine (Rows.pay0_apply _ _ _ _ _ _ p q).trans ?_
  show _ = row (fun k => V c main_v17 (ix2 (⟨t.val * 4000 + p.val, hR⟩ : Fin 100000) k)) (fun k c' => V c main_arg7 (ix2 k c'))
    (fun c' => V c main_v18 (ix2 (0 : Fin 1) c')) (fun c' => V c main_arg1 (ix2 (⟨t.val * 4000 + p.val, hR⟩ : Fin 100000) c'))
    (fun c' => V c main_v19 (ix2 (0 : Fin 1) c')) (fun c' => V c main_v20 (ix2 (0 : Fin 1) c')) q
  rw [funext fun k => read0 V c t p k hR, funext fun k => read1 V c t p k hR, funext fun k => funext fun c' => read2 V c t k c',
    funext fun k => read3 V c t k, funext fun k => read4 V c t k, funext fun k => read5 V c t k]

/-- What point t writes back is block t of the stage's result. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz, View.ld_unit_zero (S := S1x128) hz]
  have hN : cfg0.N = 25 := N_0
  have ht : t.val < cfg0.N := t.isLt
  funext j
  obtain ⟨p, q, rfl⟩ : ∃ (p : Fin 4000) (q : Fin 128), j = ix2 p q := ⟨j 0, j 1, eq_ix2 j⟩
  have hp : p.val < 4000 := p.isLt
  have hR : t.val * 4000 + p.val < 100000 := by omega
  show k0_pay1 (F := Ideal) (iblk0 V c 0 t) (iblk0 V c 1 t) (iblk0 V c 2 t) (iblk0 V c 3 t) (iblk0 V c 4 t) (iblk0 V c 5 t) (ix2 p q) = result V c (((cfg0.win 6).blk t).view.emb (ix2 p q))
  rw [emb6 t p q hR]
  exact body_eq V c t p q hR

/-- An index of the result array lies in point t's block iff each coordinate lies in the block's range. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v21).slice (win0_6.rect t)).set ↔ _
  rw [View.set_slice_whole, Rect.mem_set_unit]
  exact Iff.rfl

/-- Every row lies in a block that is written back: row r in block r / 4000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have hlt : (i 0).val / 4000 < cfg0.N := by rw [hN]; omega
  obtain ⟨e00, e01, e10, e11, e20, e21, e30, e31, e40, e41, e50, e51, e60, e61⟩ := idx_facts ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    rw [e61]; omega

/-- After region 0 its result array is the stage's result of the arrays it was entered with. -/
theorem final (c : Dev nD) : (dat0 V c).arrAt 6 cfg0.N = result V c :=
  (dat0 V c).arrAt_eq_of_cover 6 (result V c) (fun t _ => flushed_eq V c t) (cover)

end Cert.KernelIdeal.Blocks0

end
-- ==== Proof.KernelBlocks1.lean ====
/-
  Region 1: its result array as one function of the arrays it is entered with.

  The grid has 25 points; point t stages rows 4000 t .. 4000 t + 3999 of the aggregated array and of the array it is
  added to, the whole weights and the three 1 x 128 rows, and writes back rows 4000 t .. 4000 t + 3999 of the result.
  What it writes back is the body's value of those blocks, which row by row is `FusedRows.row`: so block t of the
  result is block t of `FusedRows.stage` of the whole arrays. The 25 blocks tile the 100000 rows (row r lies in block
  r / 4000), so after the region the result array is `FusedRows.stage` of the arrays as the region found them.
-/
import proofs.«166734_j33260226740761_1_alg».proof.Proof.Gen.KernelIdeal.Frame
import proofs.«166734_j33260226740761_1_alg».proof.Proof.KernelRows
import proofs.«166734_j33260226740761_1_alg».proof.Proof.StageSpec
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen FusedRows

variable (V : (c : Dev nD) → (b : Ref sig .tc) → Buf (Elt Ideal) ((c : Thread nD τ).loc b))

theorem hz : (![0, 0] : Fin 2 → Nat) = fun _ => 0 := funext fun a => by fin_cases a <;> rfl

/-- The stage's result of the arrays region 1 is entered with. -/
abbrev result (c : Dev nD) : S100000x128.Idx → EReal :=
  stage 100000 (V c main_v42) (V c main_v21) (V c main_arg9) (V c main_v43) (V c main_v44) (V c main_v45)

/-- The printed index maps over the grid: the two row-tiled inputs and the output are at block row t, column block 0;
    the weights and the three rows are always at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t, read at (p, k): the array's entry at row 4000 t + p. -/
theorem read0 (c : Dev nD) (t : Fin cfg1.N) (p : Fin 4000) (k : Fin 128) (hR : t.val * 4000 + p.val < 100000) :
    iblk1 V c 0 t (ix2 p k) = V c main_v42 (ix2 (⟨t.val * 4000 + p.val, hR⟩ : Fin 100000) k) := by
  obtain ⟨e00, e01, e10, e11, e20, e21, e30, e31, e40, e41, e50, e51, e60, e61⟩ := idx_facts t
  show V c main_v42 (((cfg1.win 0).blk t).view.emb (ix2 p k)) = _
  refine congrArg (V c main_v42) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

/-- Window 1's block at point t, read at (p, k): the array's entry at row 4000 t + p. -/
theorem read1 (c : Dev nD) (t : Fin cfg1.N) (p : Fin 4000) (k : Fin 128) (hR : t.val * 4000 + p.val < 100000) :
    iblk1 V c 1 t (ix2 p k) = V c main_v21 (ix2 (⟨t.val * 4000 + p.val, hR⟩ : Fin 100000) k) := by
  obtain ⟨e00, e01, e10, e11, e20, e21, e30, e31, e40, e41, e50, e51, e60, e61⟩ := idx_facts t
  show V c main_v21 (((cfg1.win 1).blk t).view.emb (ix2 p k)) = _
  refine congrArg (V c main_v21) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

/-- Window 2's block is the whole weight matrix. -/
theorem read2 (c : Dev nD) (t : Fin cfg1.N) (k c' : Fin 128) :
    iblk1 V c 2 t (ix2 k c') = V c main_arg9 (ix2 k c') := by
  obtain ⟨e00, e01, e10, e11, e20, e21, e30, e31, e40, e41, e50, e51, e60, e61⟩ := idx_facts t
  show V c main_arg9 (((cfg1.win 2).blk t).view.emb (ix2 k c')) = _
  refine congrArg (V c main_arg9) (funext fun a => Fin.ext ?_)
  match a with
  | ⟨0, _⟩ => show win1_2.index t (0 : Fin 2) * 128 + 1 * k.val = k.val; omega
  | ⟨1, _⟩ => show win1_2.index t (1 : Fin 2) * 128 + 1 * c'.val = c'.val; omega

/-- Window 3's block is its whole 1 x 128 array. -/
theorem read3 (c : Dev nD) (t : Fin cfg1.N) (k : Fin 128) :
    iblk1 V c 3 t (ix2 (0 : Fin 1) k) = V c main_v43 (ix2 (0 : Fin 1) k) := by
  obtain ⟨e00, e01, e10, e11, e20, e21, e30, e31, e40, e41, e50, e51, e60, e61⟩ := idx_facts t
  show V c main_v43 (((cfg1.win 3).blk t).view.emb (ix2 (0 : Fin 1) k)) = _
  refine congrArg (V c main_v43) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- Window 4's block is its whole 1 x 128 array. -/
theorem read4 (c : Dev nD) (t : Fin cfg1.N) (k : Fin 128) :
    iblk1 V c 4 t (ix2 (0 : Fin 1) k) = V c main_v44 (ix2 (0 : Fin 1) k) := by
  obtain ⟨e00, e01, e10, e11, e20, e21, e30, e31, e40, e41, e50, e51, e60, e61⟩ := idx_facts t
  show V c main_v44 (((cfg1.win 4).blk t).view.emb (ix2 (0 : Fin 1) k)) = _
  refine congrArg (V c main_v44) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- Window 5's block is its whole 1 x 128 array. -/
theorem read5 (c : Dev nD) (t : Fin cfg1.N) (k : Fin 128) :
    iblk1 V c 5 t (ix2 (0 : Fin 1) k) = V c main_v45 (ix2 (0 : Fin 1) k) := by
  obtain ⟨e00, e01, e10, e11, e20, e21, e30, e31, e40, e41, e50, e51, e60, e61⟩ := idx_facts t
  show V c main_v45 (((cfg1.win 5).blk t).view.emb (ix2 (0 : Fin 1) k)) = _
  refine congrArg (V c main_v45) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- The output block's entry (p, q) sits at row 4000 t + p, column q of the result array. -/
theorem emb6 (t : Fin cfg1.N) (p : Fin 4000) (q : Fin 128) (hR : t.val * 4000 + p.val < 100000) :
    ((cfg1.win 6).blk t).view.emb (ix2 p q) = ix2 (⟨t.val * 4000 + p.val, hR⟩ : Fin 100000) q := by
  obtain ⟨e00, e01, e10, e11, e20, e21, e30, e31, e40, e41, e50, e51, e60, e61⟩ := idx_facts t
  funext a; apply Fin.ext
  match a with
  | ⟨0, _⟩ => show win1_6.index t (0 : Fin 2) * 4000 + 1 * p.val = t.val * 4000 + p.val; omega
  | ⟨1, _⟩ => show win1_6.index t (1 : Fin 2) * 128 + 1 * q.val = q.val; omega

/-- The body's value of point t's blocks, at (p, q): the stage's result at row 4000 t + p, column q. -/
theorem body_eq (c : Dev nD) (t : Fin cfg1.N) (p : Fin 4000) (q : Fin 128) (hR : t.val * 4000 + p.val < 100000) :
    k1_pay1 (F := Ideal) (k1_pay2 (iblk1 V c 0 t) (iblk1 V c 1 t) (iblk1 V c 2 t) (iblk1 V c 3 t) (iblk1 V c 4 t) (iblk1 V c 5 t)) k1_pay3 (ix2 p q) = result V c (ix2 (⟨t.val * 4000 + p.val, hR⟩ : Fin 100000) q) := by
  refine (Rows.pay1_apply _ _ _ _ _ _ p q).trans ?_
  show _ = row (fun k => V c main_v42 (ix2 (⟨t.val * 4000 + p.val, hR⟩ : Fin 100000) k)) (fun k c' => V c main_arg9 (ix2 k c'))
    (fun c' => V c main_v43 (ix2 (0 : Fin 1) c')) (fun c' => V c main_v21 (ix2 (⟨t.val * 4000 + p.val, hR⟩ : Fin 100000) c'))
    (fun c' => V c main_v44 (ix2 (0 : Fin 1) c')) (fun c' => V c main_v45 (ix2 (0 : Fin 1) c')) q
  rw [funext fun k => read0 V c t p k hR, funext fun k => read1 V c t p k hR, funext fun k => funext fun c' => read2 V c t k c',
    funext fun k => read3 V c t k, funext fun k => read4 V c t k, funext fun k => read5 V c t k]

/-- What point t writes back is block t of the stage's result. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  have hN : cfg1.N = 25 := N_1
  have ht : t.val < cfg1.N := t.isLt
  funext j
  obtain ⟨p, q, rfl⟩ : ∃ (p : Fin 4000) (q : Fin 128), j = ix2 p q := ⟨j 0, j 1, eq_ix2 j⟩
  have hp : p.val < 4000 := p.isLt
  have hR : t.val * 4000 + p.val < 100000 := by omega
  show k1_pay1 (F := Ideal) (k1_pay2 (iblk1 V c 0 t) (iblk1 V c 1 t) (iblk1 V c 2 t) (iblk1 V c 3 t) (iblk1 V c 4 t) (iblk1 V c 5 t)) k1_pay3 (ix2 p q) = result V c (((cfg1.win 6).blk t).view.emb (ix2 p q))
  rw [emb6 t p q hR]
  exact body_eq V c t p q hR

/-- An index of the result array lies in point t's block iff each coordinate lies in the block's range. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v46).slice (win1_6.rect t)).set ↔ _
  rw [View.set_slice_whole, Rect.mem_set_unit]
  exact Iff.rfl

/-- Every row lies in a block that is written back: row r in block r / 4000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  have hlt : (i 0).val / 4000 < cfg1.N := by rw [hN]; omega
  obtain ⟨e00, e01, e10, e11, e20, e21, e30, e31, e40, e41, e50, e51, e60, e61⟩ := idx_facts ⟨(i 0).val / 4000, hlt⟩
  refine ⟨⟨(i 0).val / 4000, hlt⟩, flush1_6 _, ?_⟩
  rw [mem_blk]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, hlt⟩ (1 : Fin 2) * 128 ≤ (i 1).val
      ∧ (i 1).val < win1_6.index ⟨(i 0).val / 4000, hlt⟩ (1 : Fin 2) * 128 + 128
    rw [e61]; omega

/-- After region 1 its result array is the stage's result of the arrays it was entered with. -/
theorem final (c : Dev nD) : (dat1 V c).arrAt 6 cfg1.N = result V c :=
  (dat1 V c).arrAt_eq_of_cover 6 (result V c) (fun t _ => flushed_eq V c t) (cover)

end Cert.KernelIdeal.Blocks1

end
-- ==== Proof.KernelBlocks2.lean ====
/-
  Region 2: its result array as one function of the arrays it is entered with.

  The grid has 100 points; point t stages rows 4000 t .. 4000 t + 3999 of the aggregated array and of the array it is
  added to, the whole weights and the three 1 x 128 rows, and writes back rows 4000 t .. 4000 t + 3999 of the result.
  What it writes back is the body's value of those blocks, which row by row is `FusedRows.row`: so block t of the
  result is block t of `FusedRows.stage` of the whole arrays. The 100 blocks tile the 400000 rows (row r lies in block
  r / 4000), so after the region the result array is `FusedRows.stage` of the arrays as the region found them.
-/
import proofs.«166734_j33260226740761_1_alg».proof.Proof.Gen.KernelIdeal.Frame
import proofs.«166734_j33260226740761_1_alg».proof.Proof.KernelRows
import proofs.«166734_j33260226740761_1_alg».proof.Proof.StageSpec
import Idealize.ShloMosaic.Lib.Pipeline.Value

set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat Cfg Window)
open Cert.KernelIdeal Cert.KernelIdeal.Gen FusedRows

variable (V : (c : Dev nD) → (b : Ref sig .tc) → Buf (Elt Ideal) ((c : Thread nD τ).loc b))

theorem hz : (![0, 0] : Fin 2 → Nat) = fun _ => 0 := funext fun a => by fin_cases a <;> rfl

/-- The stage's result of the arrays region 2 is entered with. -/
abbrev result (c : Dev nD) : S400000x128.Idx → EReal :=
  stage 400000 (V c main_v64) (V c main_arg0) (V c main_arg11) (V c main_v65) (V c main_v66) (V c main_v67)

/-- The printed index maps over the grid: the two row-tiled inputs and the output are at block row t, column block 0;
    the weights and the three rows are always at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t, read at (p, k): the array's entry at row 4000 t + p. -/
theorem read0 (c : Dev nD) (t : Fin cfg2.N) (p : Fin 4000) (k : Fin 128) (hR : t.val * 4000 + p.val < 400000) :
    iblk2 V c 0 t (ix2 p k) = V c main_v64 (ix2 (⟨t.val * 4000 + p.val, hR⟩ : Fin 400000) k) := by
  obtain ⟨e00, e01, e10, e11, e20, e21, e30, e31, e40, e41, e50, e51, e60, e61⟩ := idx_facts t
  show V c main_v64 (((cfg2.win 0).blk t).view.emb (ix2 p k)) = _
  refine congrArg (V c main_v64) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

/-- Window 1's block at point t, read at (p, k): the array's entry at row 4000 t + p. -/
theorem read1 (c : Dev nD) (t : Fin cfg2.N) (p : Fin 4000) (k : Fin 128) (hR : t.val * 4000 + p.val < 400000) :
    iblk2 V c 1 t (ix2 p k) = V c main_arg0 (ix2 (⟨t.val * 4000 + p.val, hR⟩ : Fin 400000) k) := by
  obtain ⟨e00, e01, e10, e11, e20, e21, e30, e31, e40, e41, e50, e51, e60, e61⟩ := idx_facts t
  show V c main_arg0 (((cfg2.win 1).blk t).view.emb (ix2 p k)) = _
  refine congrArg (V c main_arg0) (funext fun a => Fin.ext ?_)
  match a with
  | ⟨0, _⟩ => show win2_1.index t (0 : Fin 2) * 4000 + 1 * p.val = t.val * 4000 + p.val; omega
  | ⟨1, _⟩ => show win2_1.index t (1 : Fin 2) * 128 + 1 * k.val = k.val; omega

/-- Window 2's block is the whole weight matrix. -/
theorem read2 (c : Dev nD) (t : Fin cfg2.N) (k c' : Fin 128) :
    iblk2 V c 2 t (ix2 k c') = V c main_arg11 (ix2 k c') := by
  obtain ⟨e00, e01, e10, e11, e20, e21, e30, e31, e40, e41, e50, e51, e60, e61⟩ := idx_facts t
  show V c main_arg11 (((cfg2.win 2).blk t).view.emb (ix2 k c')) = _
  refine congrArg (V c main_arg11) (funext fun a => Fin.ext ?_)
  match a with
  | ⟨0, _⟩ => show win2_2.index t (0 : Fin 2) * 128 + 1 * k.val = k.val; omega
  | ⟨1, _⟩ => show win2_2.index t (1 : Fin 2) * 128 + 1 * c'.val = c'.val; omega

/-- Window 3's block is its whole 1 x 128 array. -/
theorem read3 (c : Dev nD) (t : Fin cfg2.N) (k : Fin 128) :
    iblk2 V c 3 t (ix2 (0 : Fin 1) k) = V c main_v65 (ix2 (0 : Fin 1) k) := by
  obtain ⟨e00, e01, e10, e11, e20, e21, e30, e31, e40, e41, e50, e51, e60, e61⟩ := idx_facts t
  show V c main_v65 (((cfg2.win 3).blk t).view.emb (ix2 (0 : Fin 1) k)) = _
  refine congrArg (V c main_v65) (funext fun a => Fin.ext ?_)
  match a with
  | ⟨0, _⟩ => show win2_3.index t (0 : Fin 2) * 1 + 1 * 0 = 0; omega
  | ⟨1, _⟩ => show win2_3.index t (1 : Fin 2) * 128 + 1 * k.val = k.val; omega

/-- Window 4's block is its whole 1 x 128 array. -/
theorem read4 (c : Dev nD) (t : Fin cfg2.N) (k : Fin 128) :
    iblk2 V c 4 t (ix2 (0 : Fin 1) k) = V c main_v66 (ix2 (0 : Fin 1) k) := by
  obtain ⟨e00, e01, e10, e11, e20, e21, e30, e31, e40, e41, e50, e51, e60, e61⟩ := idx_facts t
  show V c main_v66 (((cfg2.win 4).blk t).view.emb (ix2 (0 : Fin 1) k)) = _
  refine congrArg (V c main_v66) (funext fun a => Fin.ext ?_)
  match a with
  | ⟨0, _⟩ => show win2_4.index t (0 : Fin 2) * 1 + 1 * 0 = 0; omega
  | ⟨1, _⟩ => show win2_4.index t (1 : Fin 2) * 128 + 1 * k.val = k.val; omega

/-- Window 5's block is its whole 1 x 128 array. -/
theorem read5 (c : Dev nD) (t : Fin cfg2.N) (k : Fin 128) :
    iblk2 V c 5 t (ix2 (0 : Fin 1) k) = V c main_v67 (ix2 (0 : Fin 1) k) := by
  obtain ⟨e00, e01, e10, e11, e20, e21, e30, e31, e40, e41, e50, e51, e60, e61⟩ := idx_facts t
  show V c main_v67 (((cfg2.win 5).blk t).view.emb (ix2 (0 : Fin 1) k)) = _
  refine congrArg (V c main_v67) (funext fun a => Fin.ext ?_)
  match a with
  | ⟨0, _⟩ => show win2_5.index t (0 : Fin 2) * 1 + 1 * 0 = 0; omega
  | ⟨1, _⟩ => show win2_5.index t (1 : Fin 2) * 128 + 1 * k.val = k.val; omega

/-- The output block's entry (p, q) sits at row 4000 t + p, column q of the result array. -/
theorem emb6 (t : Fin cfg2.N) (p : Fin 4000) (q : Fin 128) (hR : t.val * 4000 + p.val < 400000) :
    ((cfg2.win 6).blk t).view.emb (ix2 p q) = ix2 (⟨t.val * 4000 + p.val, hR⟩ : Fin 400000) q := by
  obtain ⟨e00, e01, e10, e11, e20, e21, e30, e31, e40, e41, e50, e51, e60, e61⟩ := idx_facts t
  funext a; apply Fin.ext
  match a with
  | ⟨0, _⟩ => show win2_6.index t (0 : Fin 2) * 4000 + 1 * p.val = t.val * 4000 + p.val; omega
  | ⟨1, _⟩ => show win2_6.index t (1 : Fin 2) * 128 + 1 * q.val = q.val; omega

/-- The body's value of point t's blocks, at (p, q): the stage's result at row 4000 t + p, column q. -/
theorem body_eq (c : Dev nD) (t : Fin cfg2.N) (p : Fin 4000) (q : Fin 128) (hR : t.val * 4000 + p.val < 400000) :
    k2_pay1 (F := Ideal) (iblk2 V c 0 t) (iblk2 V c 1 t) (iblk2 V c 2 t) (iblk2 V c 3 t) (iblk2 V c 4 t) (iblk2 V c 5 t) (ix2 p q) = result V c (ix2 (⟨t.val * 4000 + p.val, hR⟩ : Fin 400000) q) := by
  refine (Rows.pay2_apply _ _ _ _ _ _ p q).trans ?_
  show _ = row (fun k => V c main_v64 (ix2 (⟨t.val * 4000 + p.val, hR⟩ : Fin 400000) k)) (fun k c' => V c main_arg11 (ix2 k c'))
    (fun c' => V c main_v65 (ix2 (0 : Fin 1) c')) (fun c' => V c main_arg0 (ix2 (⟨t.val * 4000 + p.val, hR⟩ : Fin 400000) c'))
    (fun c' => V c main_v66 (ix2 (0 : Fin 1) c')) (fun c' => V c main_v67 (ix2 (0 : Fin 1) c')) q
  rw [funext fun k => read0 V c t p k hR, funext fun k => read1 V c t p k hR, funext fun k => funext fun c' => read2 V c t k c',
    funext fun k => read3 V c t k, funext fun k => read4 V c t k, funext fun k => read5 V c t k]

/-- What point t writes back is block t of the stage's result. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x128) hz, View.ld_unit_zero (S := S1x128) hz]
  have hN : cfg2.N = 100 := N_2
  have ht : t.val < cfg2.N := t.isLt
  funext j
  obtain ⟨p, q, rfl⟩ : ∃ (p : Fin 4000) (q : Fin 128), j = ix2 p q := ⟨j 0, j 1, eq_ix2 j⟩
  have hp : p.val < 4000 := p.isLt
  have hR : t.val * 4000 + p.val < 400000 := by omega
  show k2_pay1 (F := Ideal) (iblk2 V c 0 t) (iblk2 V c 1 t) (iblk2 V c 2 t) (iblk2 V c 3 t) (iblk2 V c 4 t) (iblk2 V c 5 t) (ix2 p q) = result V c (((cfg2.win 6).blk t).view.emb (ix2 p q))
  rw [emb6 t p q hR]
  exact body_eq V c t p q hR

/-- An index of the result array lies in point t's block iff each coordinate lies in the block's range. -/
theorem mem_blk (t : Fin cfg2.N) (i : S400000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v68).slice (win2_6.rect t)).set ↔ _
  rw [View.set_slice_whole, Rect.mem_set_unit]
  exact Iff.rfl

/-- Every row lies in a block that is written back: row r in block r / 4000. -/
theorem cover (i : S400000x128.Idx) :
    ∃ t : Fin cfg2.N, (cfg2.win 6).flush t = true ∧ i ∈ ((cfg2.win 6).blk t).view.set := by
  have hi0 : (i 0).val < 400000 := (i 0).isLt
  have hi1 : (i 1).val < 128 := (i 1).isLt
  have hN : cfg2.N = 100 := N_2
  have hlt : (i 0).val / 4000 < cfg2.N := by rw [hN]; omega
  obtain ⟨e00, e01, e10, e11, e20, e21, e30, e31, e40, e41, e50, e51, e60, e61⟩ := idx_facts ⟨(i 0).val / 4000, hlt⟩
  refine ⟨⟨(i 0).val / 4000, hlt⟩, flush2_6 _, ?_⟩
  rw [mem_blk]
  intro a
  match a with
  | ⟨0, _⟩ =>
    show win2_6.index ⟨(i 0).val / 4000, hlt⟩ (0 : Fin 2) * 4000 ≤ (i 0).val
      ∧ (i 0).val < win2_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win2_6.index ⟨(i 0).val / 4000, hlt⟩ (1 : Fin 2) * 128 ≤ (i 1).val
      ∧ (i 1).val < win2_6.index ⟨(i 0).val / 4000, hlt⟩ (1 : Fin 2) * 128 + 128
    rw [e61]; omega

/-- After region 2 its result array is the stage's result of the arrays it was entered with. -/
theorem final (c : Dev nD) : (dat2 V c).arrAt 6 cfg2.N = result V c :=
  (dat2 V c).arrAt_eq_of_cover 6 (result V c) (fun t _ => flushed_eq V c t) (cover)

end Cert.KernelIdeal.Blocks2

end
-- ==== Proof.KernelKept.lean ====
/-
  What the host stretches leave alone.

  Each stretch of host operations writes only its own operations' result buffers. So a buffer that is none of those
  results holds after the stretch what it held before, and across the three stretches in front of a region a buffer that
  none of them writes arrives at the region unchanged. This is how an argument array, or a region's result that later
  stretches only read, is carried from one boundary of @main to the next.
-/
import proofs.«166734_j33260226740761_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]

/-- The buffers `hostOps0`'s operations write: their own results. -/
abbrev hostOps0_W : List (Ref sig .tc) := [main_c, main_v0, main_v1, main_c_0, main_v2, main_v3, main_v4, main_v5, main_v6, main_cst, main_v7, main_v8, main_v9, main_cst_1, main_v10, main_cst_2, main_v11, main_v12, main_v13, main_cst_3]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_1`'s operations write: their own results. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_2`'s operations write: their own results. -/
abbrev hostOps0_2_W : List (Ref sig .tc) := [main_v15, main_v16, main_v17, main_v18, main_v19, main_v20]
theorem hostOps0_2_writes : (hostOps0_2 : List (HloOp τ sig (Elt F))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1`'s operations write: their own results. -/
abbrev hostOps1_W : List (Ref sig .tc) := [main_c_4, main_v22, main_v23, main_c_5, main_v24, main_v25, main_v26, main_v27, main_v28, main_v29, main_v30, main_v31, main_cst_6, main_v32, main_v33, main_v34, main_cst_7, main_v35, main_cst_8, main_v36, main_v37, main_v38, main_cst_9]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_1`'s operations write: their own results. -/
abbrev hostOps1_1_W : List (Ref sig .tc) := [main_call1_v0, main_call1_v1, main_v39]
theorem hostOps1_1_writes : (hostOps1_1 : List (HloOp τ sig (Elt F))).Forall fun op => op.writes ⊆ (hostOps1_1_W.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_2`'s operations write: their own results. -/
abbrev hostOps1_2_W : List (Ref sig .tc) := [main_v40, main_v41, main_v42, main_v43, main_v44, main_v45]
theorem hostOps1_2_writes : (hostOps1_2 : List (HloOp τ sig (Elt F))).Forall fun op => op.writes ⊆ (hostOps1_2_W.map (Proc.devRef (τ := τ) .tc)).toFinset := by
  simp only [hostOps1_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2`'s operations write: their own results. -/
abbrev hostOps2_W : List (Ref sig .tc) := [main_c_10, main_v47, main_v48, main_c_11, main_v49, main_v50, main_v51, main_v52, main_v53, main_cst_12, main_v54, main_v55, main_v56, main_cst_13, main_v57, main_cst_14, main_v58, main_v59, main_v60, main_cst_15]
theorem hostOps2_writes : (hostOps2 : List (HloOp τ sig (Elt F))).Forall fun op => op.writes ⊆ (hostOps2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2_1`'s operations write: their own results. -/
abbrev hostOps2_1_W : List (Ref sig .tc) := [main_call2_v0, main_call2_v1, main_v61]
theorem hostOps2_1_writes : (hostOps2_1 : List (HloOp τ sig (Elt F))).Forall fun op => op.writes ⊆ (hostOps2_1_W.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2_2`'s operations write: their own results. -/
abbrev hostOps2_2_W : List (Ref sig .tc) := [main_v62, main_v63, main_v64, main_v65, main_v66, main_v67]
theorem hostOps2_2_writes : (hostOps2_2 : List (HloOp τ sig (Elt F))).Forall fun op => op.writes ⊆ (hostOps2_2_W.map (Proc.devRef (τ := τ) .tc)).toFinset := by
  simp only [hostOps2_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-- A buffer none of the three stretches before region 0 writes holds at the region's entry what it held after the
    previous boundary. -/
theorem W3_of (c : Dev nD) (r : Ref sig .tc) (h0 : r ∉ hostOps0_W) (h1 : r ∉ hostOps0_1_W) (h2 : r ∉ hostOps0_2_W) :
    W3 m ρ c (Proc.devRef .tc r) = W0 m ρ c (Proc.devRef .tc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

/-- A buffer none of the three stretches before region 1 writes holds at the region's entry what it held after the
    previous boundary. -/
theorem W7_of (c : Dev nD) (r : Ref sig .tc) (h0 : r ∉ hostOps1_W) (h1 : r ∉ hostOps1_1_W) (h2 : r ∉ hostOps1_2_W) :
    W7 m ρ c (Proc.devRef .tc r) = W4 m ρ c (Proc.devRef .tc r) :=
  (StableHlo.after_of_writes_sub hostOps1_2 _ hostOps1_2_writes h2).trans
    ((StableHlo.after_of_writes_sub hostOps1_1 _ hostOps1_1_writes h1).trans
      (StableHlo.after_of_writes_sub hostOps1 _ hostOps1_writes h0))

/-- A buffer none of the three stretches before region 2 writes holds at the region's entry what it held after the
    previous boundary. -/
theorem W11_of (c : Dev nD) (r : Ref sig .tc) (h0 : r ∉ hostOps2_W) (h1 : r ∉ hostOps2_1_W) (h2 : r ∉ hostOps2_2_W) :
    W11 m ρ c (Proc.devRef .tc r) = W8 m ρ c (Proc.devRef .tc r) :=
  (StableHlo.after_of_writes_sub hostOps2_2 _ hostOps2_2_writes h2).trans
    ((StableHlo.after_of_writes_sub hostOps2_1 _ hostOps2_1_writes h1).trans
      (StableHlo.after_of_writes_sub hostOps2 _ hostOps2_writes h0))

end Cert.KernelIdeal.Kept

end
-- ==== Proof.HostAgg.lean ====
/-
  The three mean aggregations over the graph's edges, as the host computes them.

  Each gathers a row of the source table per edge (the edge's source index, a negative index wrapped once by the
  table's length), optionally scales it by the edge's weight, adds it into the row of its destination, and divides
  each destination row by max(1, the number of edges arriving there). Both programs compute these three tables with
  the same host operations; they are named here once so that neither side ever has to be opened.
-/
import proofs.«166734_j33260226740761_1_alg».proof.Proof.Gen.KernelIdeal

noncomputable section

namespace Cert.KernelIdeal.HostAgg

open Idealize.ShloMosaic Cert.KernelIdeal Cert.KernelIdeal.Gen

variable {F : FTy → Type} [FloatOps F]

/-- Pins to nets: rows of the 400000-row table gathered by `src`, summed into 100000 rows by `dst`, averaged. -/
def agg0 (x : (⟨S400000x128, .f32⟩ : BufTy).Contents (Elt F)) (src dst : (⟨S400000, .i32⟩ : BufTy).Contents (Elt F)) : (⟨S100000x128, .f32⟩ : BufTy).Contents (Elt F) :=
  Host.divf
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0 dst)
      (Host.gather gather_S400000x128_S400000x1_S400000x128_1_0_n_n_0_1_1128 x
        (broadcastInDim S400000x1 ![0] bcast_S400000_S400000x1_0
          (select (cmpi .slt src (broadcastInDim S400000 ![] bcast_S_S400000 (constantI S_ 32 0#32)))
            (addi src (broadcastInDim S400000 ![] bcast_S_S400000 (constantI S_ 32 400000#32))) src))))
    (broadcastInDim S100000x128 ![0, 1] bcast_S100000x1_S100000x128_0_1
      (broadcastInDim S100000x1 ![0] bcast_S100000_S100000x1_0
        (maximumf (broadcastInDim S100000 ![] bcast_S_S100000 (id (constant S_ .f32 0x3F800000#32)))
          (Host.scatterAdd scatter_S100000_S400000x1_S400000_n_0_0_1
            (broadcastInDim S100000 ![] bcast_S_S100000 (constant S_ .f32 0x00000000#32))
            (broadcastInDim S400000x1 ![0] bcast_S400000_S400000x1_0 dst)
            (broadcastInDim S400000 ![] bcast_S_S400000 (constant S_ .f32 0x3F800000#32))))))

/-- Nets to nets: rows of the 100000-row table gathered by `src`, scaled by the edge weights `ew`, summed by `dst`,
    averaged. -/
def agg1 (h : (⟨S100000x128, .f32⟩ : BufTy).Contents (Elt F)) (src dst : (⟨S800000, .i32⟩ : BufTy).Contents (Elt F)) (ew : (⟨S800000, .f32⟩ : BufTy).Contents (Elt F)) : (⟨S100000x128, .f32⟩ : BufTy).Contents (Elt F) :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 dst)
      (mulf (Host.gather gather_S100000x128_S800000x1_S800000x128_1_0_n_n_0_1_1128 h
          (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src)))
        (broadcastInDim S800000x128 ![0, 1] bcast_S800000x1_S800000x128_0_1 (broadcastInDim S800000x1 ![0] bcast_S800000_S800000x1_0 ew))))
    (broadcastInDim S100000x128 ![0, 1] bcast_S100000x1_S100000x128_0_1
      (broadcastInDim S100000x1 ![0] bcast_S100000_S100000x1_0
        (maximumf (broadcastInDim S100000 ![] bcast_S_S100000 (id (constant S_ .f32 0x3F800000#32)))
          (Host.scatterAdd scatter_S100000_S800000x1_S800000_n_0_0_1
            (broadcastInDim S100000 ![] bcast_S_S100000 (constant S_ .f32 0x00000000#32))
            (broadcastInDim S800000x1 ![0] bcast_S800000_S800000x1_0 dst)
            (broadcastInDim S800000 ![] bcast_S_S800000 (constant S_ .f32 0x3F800000#32))))))

/-- Nets back to pins: rows of the 100000-row table gathered by `src`, summed into 400000 rows by `dst`, averaged. -/
def agg2 (h : (⟨S100000x128, .f32⟩ : BufTy).Contents (Elt F)) (src dst : (⟨S400000, .i32⟩ : BufTy).Contents (Elt F)) : (⟨S400000x128, .f32⟩ : BufTy).Contents (Elt F) :=
  Host.divf
    (Host.scatterAdd scatter_S400000x128_S400000x1_S400000x128_1_0_0_1
      (broadcastInDim S400000x128 ![] bcast_S_S400000x128 (constant S_ .f32 0x00000000#32))
      (broadcastInDim S400000x1 ![0] bcast_S400000_S400000x1_0 dst)
      (Host.gather gather_S100000x128_S400000x1_S400000x128_1_0_n_n_0_1_1128 h
        (broadcastInDim S400000x1 ![0] bcast_S400000_S400000x1_0
          (select (cmpi .slt src (broadcastInDim S400000 ![] bcast_S_S400000 (constantI S_ 32 0#32)))
            (addi src (broadcastInDim S400000 ![] bcast_S_S400000 (constantI S_ 32 100000#32))) src))))
    (broadcastInDim S400000x128 ![0, 1] bcast_S400000x1_S400000x128_0_1
      (broadcastInDim S400000x1 ![0] bcast_S400000_S400000x1_0
        (maximumf (broadcastInDim S400000 ![] bcast_S_S400000 (id (constant S_ .f32 0x3F800000#32)))
          (Host.scatterAdd scatter_S400000_S400000x1_S400000_n_0_0_1
            (broadcastInDim S400000 ![] bcast_S_S400000 (constant S_ .f32 0x00000000#32))
            (broadcastInDim S400000x1 ![0] bcast_S400000_S400000x1_0 dst)
            (broadcastInDim S400000 ![] bcast_S_S400000 (constant S_ .f32 0x3F800000#32))))))

end Cert.KernelIdeal.HostAgg

end
-- ==== Proof.KernelEntry0.lean ====
/-
  The arrays region 0 is entered with.

  Before region 0 the host computes the first aggregation from the launch contents of three arguments and casts three
  128-vectors to 1 x 128 rows; the array the result is added to and the weights are arguments no operation writes.
-/
import proofs.«166734_j33260226740761_1_alg».proof.Proof.KernelKept
import proofs.«166734_j33260226740761_1_alg».proof.Proof.HostAgg
import Idealize.ShloMosaic.PureOps.Ideal

set_option maxRecDepth 16384

noncomputable section

namespace Cert.KernelIdeal.Entry0

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- The aggregated rows: the first aggregation of the launch contents. -/
theorem agg : (V3 m ρ c main_v17 : S100000x128.Idx → EReal)
    = HostAgg.agg0 (m ((c : Thread nD τ).loc main_arg0)) (m ((c : Thread nD τ).loc main_arg3)) (m ((c : Thread nD τ).loc main_arg4)) := by
  show StableHlo.after hostOps0_2 (StableHlo.after hostOps0_1 (StableHlo.after hostOps0 (W0 m ρ c))) (Proc.devRef .tc main_v17) = _
  simp only [hostOps0, hostOps0_1, hostOps0_2]
  after_results_simp
  rfl

/-- An argument no stretch before region 0 writes holds its launch contents there. -/
theorem kept (r : Ref sig .tc) (h0 : r ∉ Kept.hostOps0_W) (h1 : r ∉ Kept.hostOps0_1_W) (h2 : r ∉ Kept.hostOps0_2_W) :
    W3 m ρ c (Proc.devRef .tc r) = m ((c : Thread nD τ).loc r) :=
  (Kept.W3_of m ρ c r h0 h1 h2).trans rfl

theorem resid : V3 m ρ c main_arg1 = m ((c : Thread nD τ).loc main_arg1) := kept m ρ c main_arg1 (by decide) (by decide) (by decide)
theorem weights : V3 m ρ c main_arg7 = m ((c : Thread nD τ).loc main_arg7) := kept m ρ c main_arg7 (by decide) (by decide) (by decide)

set_option maxHeartbeats 1000000 in
/-- The bias, a 128-vector argument cast to a 1 x 128 row by the last stretch. -/
theorem bias : (V3 m ρ c main_v18 : S1x128.Idx → EReal) = shapeCast S1x128 (m ((c : Thread nD τ).loc main_arg8)) shapeCasts_S128_S1x128 := by
  show StableHlo.after hostOps0_2 (W2 m ρ c) (Proc.devRef .tc main_v18) = _
  simp only [hostOps0_2]
  after_results
  rfl
set_option maxHeartbeats 1000000 in
/-- The gain, cast likewise. -/
theorem gain : (V3 m ρ c main_v19 : S1x128.Idx → EReal) = shapeCast S1x128 (m ((c : Thread nD τ).loc main_arg13)) shapeCasts_S128_S1x128 := by
  show StableHlo.after hostOps0_2 (W2 m ρ c) (Proc.devRef .tc main_v19) = _
  simp only [hostOps0_2]
  after_results
  rfl
set_option maxHeartbeats 1000000 in
/-- The offset, cast likewise. -/
theorem offset : (V3 m ρ c main_v20 : S1x128.Idx → EReal) = shapeCast S1x128 (m ((c : Thread nD τ).loc main_arg14)) shapeCasts_S128_S1x128 := by
  show StableHlo.after hostOps0_2 (W2 m ρ c) (Proc.devRef .tc main_v20) = _
  simp only [hostOps0_2]
  after_results
  rfl

end Cert.KernelIdeal.Entry0

end
-- ==== Proof.KernelEntry1.lean ====
/-
  The arrays region 1 is entered with.

  Before region 1 the host computes the second, edge-weighted aggregation from region 0's result and three arguments, and casts
  three 128-vectors to 1 x 128 rows; region 0's result itself (the rows the new result is added to) and the weights pass
  through unwritten. Everything is stated from the contents region 0 leaves.
-/
import proofs.«166734_j33260226740761_1_alg».proof.Proof.KernelKept
import proofs.«166734_j33260226740761_1_alg».proof.Proof.HostAgg
import Idealize.ShloMosaic.PureOps.Ideal

set_option maxRecDepth 16384

noncomputable section

namespace Cert.KernelIdeal.Entry1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- The aggregated rows: the aggregation of the contents the previous region left. -/
theorem agg : (V7 m ρ c main_v42 : S100000x128.Idx → EReal)
    = HostAgg.agg1 (W4 m ρ c (Proc.devRef .tc main_v21)) (W4 m ρ c (Proc.devRef .tc main_arg5)) (W4 m ρ c (Proc.devRef .tc main_arg6)) (W4 m ρ c (Proc.devRef .tc main_arg2)) := by
  show StableHlo.after hostOps1_2 (StableHlo.after hostOps1_1 (StableHlo.after hostOps1 (W4 m ρ c))) (Proc.devRef .tc main_v42) = _
  simp only [hostOps1, hostOps1_1, hostOps1_2]
  after_results_simp
  rfl

/-- A buffer no stretch before region 1 writes arrives there as the previous region left it. -/
theorem resid : V7 m ρ c main_v21 = W4 m ρ c (Proc.devRef .tc main_v21) := Kept.W7_of m ρ c main_v21 (by decide) (by decide) (by decide)
theorem weights : V7 m ρ c main_arg9 = W4 m ρ c (Proc.devRef .tc main_arg9) := Kept.W7_of m ρ c main_arg9 (by decide) (by decide) (by decide)

set_option maxHeartbeats 1000000 in
/-- The bias, a 128-vector cast to a 1 x 128 row by the last stretch. -/
theorem bias : (V7 m ρ c main_v43 : S1x128.Idx → EReal) = shapeCast S1x128 (W4 m ρ c (Proc.devRef .tc main_arg10)) shapeCasts_S128_S1x128 := by
  show StableHlo.after hostOps1_2 (W6 m ρ c) (Proc.devRef .tc main_v43) = _
  simp only [hostOps1_2]
  after_results
  rfl
set_option maxHeartbeats 1000000 in
/-- The gain, cast likewise. -/
theorem gain : (V7 m ρ c main_v44 : S1x128.Idx → EReal) = shapeCast S1x128 (W4 m ρ c (Proc.devRef .tc main_arg15)) shapeCasts_S128_S1x128 := by
  show StableHlo.after hostOps1_2 (W6 m ρ c) (Proc.devRef .tc main_v44) = _
  simp only [hostOps1_2]
  after_results
  rfl
set_option maxHeartbeats 1000000 in
/-- The offset, cast likewise. -/
theorem offset : (V7 m ρ c main_v45 : S1x128.Idx → EReal) = shapeCast S1x128 (W4 m ρ c (Proc.devRef .tc main_arg16)) shapeCasts_S128_S1x128 := by
  show StableHlo.after hostOps1_2 (W6 m ρ c) (Proc.devRef .tc main_v45) = _
  simp only [hostOps1_2]
  after_results
  rfl

end Cert.KernelIdeal.Entry1

end
-- ==== Proof.KernelEntry2.lean ====
/-
  The arrays region 2 is entered with.

  Before region 2 the host computes the third aggregation (nets back to pins) from region 1's result and two arguments, and
  casts three 128-vectors to 1 x 128 rows; the pins' rows the new result is added to and the weights are arguments that
  pass through unwritten. Everything is stated from the contents region 1 leaves.
-/
import proofs.«166734_j33260226740761_1_alg».proof.Proof.KernelKept
import proofs.«166734_j33260226740761_1_alg».proof.Proof.HostAgg
import Idealize.ShloMosaic.PureOps.Ideal

set_option maxRecDepth 16384

noncomputable section

namespace Cert.KernelIdeal.Entry2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- The aggregated rows: the aggregation of the contents the previous region left. -/
theorem agg : (V11 m ρ c main_v64 : S400000x128.Idx → EReal)
    = HostAgg.agg2 (W8 m ρ c (Proc.devRef .tc main_v46)) (W8 m ρ c (Proc.devRef .tc main_arg4)) (W8 m ρ c (Proc.devRef .tc main_arg3)) := by
  show StableHlo.after hostOps2_2 (StableHlo.after hostOps2_1 (StableHlo.after hostOps2 (W8 m ρ c))) (Proc.devRef .tc main_v64) = _
  simp only [hostOps2, hostOps2_1, hostOps2_2]
  after_results_simp
  rfl

/-- A buffer no stretch before region 2 writes arrives there as the previous region left it. -/
theorem resid : V11 m ρ c main_arg0 = W8 m ρ c (Proc.devRef .tc main_arg0) := Kept.W11_of m ρ c main_arg0 (by decide) (by decide) (by decide)
theorem weights : V11 m ρ c main_arg11 = W8 m ρ c (Proc.devRef .tc main_arg11) := Kept.W11_of m ρ c main_arg11 (by decide) (by decide) (by decide)

set_option maxHeartbeats 1000000 in
/-- The bias, a 128-vector cast to a 1 x 128 row by the last stretch. -/
theorem bias : (V11 m ρ c main_v65 : S1x128.Idx → EReal) = shapeCast S1x128 (W8 m ρ c (Proc.devRef .tc main_arg12)) shapeCasts_S128_S1x128 := by
  show StableHlo.after hostOps2_2 (W10 m ρ c) (Proc.devRef .tc main_v65) = _
  simp only [hostOps2_2]
  after_results
  rfl
set_option maxHeartbeats 1000000 in
/-- The gain, cast likewise. -/
theorem gain : (V11 m ρ c main_v66 : S1x128.Idx → EReal) = shapeCast S1x128 (W8 m ρ c (Proc.devRef .tc main_arg17)) shapeCasts_S128_S1x128 := by
  show StableHlo.after hostOps2_2 (W10 m ρ c) (Proc.devRef .tc main_v66) = _
  simp only [hostOps2_2]
  after_results
  rfl
set_option maxHeartbeats 1000000 in
/-- The offset, cast likewise. -/
theorem offset : (V11 m ρ c main_v67 : S1x128.Idx → EReal) = shapeCast S1x128 (W8 m ρ c (Proc.devRef .tc main_arg18)) shapeCasts_S128_S1x128 := by
  show StableHlo.after hostOps2_2 (W10 m ρ c) (Proc.devRef .tc main_v67) = _
  simp only [hostOps2_2]
  after_results
  rfl

end Cert.KernelIdeal.Entry2

end
-- ==== Proof.LayerSpec.lean ====
/-
  The whole layer as functions of the nineteen argument arrays.

  Three fused stages, each fed by a mean aggregation over edges:
    net1 = stage (pins aggregated into nets) added to the nets' rows, with the first weights, bias, gain and offset;
    net2 = stage (net1 aggregated over the weighted net-to-net edges) added to net1, with the second set;
    pin3 = stage (net2 aggregated back into pins) added to the pins' rows, with the third set.
  The program returns (pin3, net2). A 128-vector enters a stage as a 1 x 128 row.
-/
import proofs.«166734_j33260226740761_1_alg».proof.Proof.HostAgg
import proofs.«166734_j33260226740761_1_alg».proof.Proof.StageSpec
import Idealize.ShloMosaic.PureOps.Ideal

noncomputable section

namespace Cert.KernelIdeal.Layer

open Idealize.ShloMosaic Cert.KernelIdeal Cert.KernelIdeal.Gen FusedRows

/-- A 128-vector as a 1 x 128 row. -/
def rowOf (v : (⟨S128, .f32⟩ : BufTy).Contents (Elt Ideal)) : S1x128.Idx → EReal := shapeCast S1x128 v shapeCasts_S128_S1x128

/-- The nets after the first stage. -/
def net1 (a0 : (⟨S400000x128, .f32⟩ : BufTy).Contents (Elt Ideal)) (a1 : (⟨S100000x128, .f32⟩ : BufTy).Contents (Elt Ideal)) (a3 a4 : (⟨S400000, .i32⟩ : BufTy).Contents (Elt Ideal))
    (a7 : (⟨S128x128, .f32⟩ : BufTy).Contents (Elt Ideal)) (a8 a13 a14 : (⟨S128, .f32⟩ : BufTy).Contents (Elt Ideal)) : S100000x128.Idx → EReal :=
  stage 100000 (HostAgg.agg0 a0 a3 a4) a1 a7 (rowOf a8) (rowOf a13) (rowOf a14)

/-- The nets after the second stage: the program's second result. -/
def net2 (a0 : (⟨S400000x128, .f32⟩ : BufTy).Contents (Elt Ideal)) (a1 : (⟨S100000x128, .f32⟩ : BufTy).Contents (Elt Ideal)) (a2 : (⟨S800000, .f32⟩ : BufTy).Contents (Elt Ideal))
    (a3 a4 : (⟨S400000, .i32⟩ : BufTy).Contents (Elt Ideal)) (a5 a6 : (⟨S800000, .i32⟩ : BufTy).Contents (Elt Ideal)) (a7 : (⟨S128x128, .f32⟩ : BufTy).Contents (Elt Ideal)) (a8 : (⟨S128, .f32⟩ : BufTy).Contents (Elt Ideal))
    (a9 : (⟨S128x128, .f32⟩ : BufTy).Contents (Elt Ideal)) (a10 : (⟨S128, .f32⟩ : BufTy).Contents (Elt Ideal)) (a11 : (⟨S128x128, .f32⟩ : BufTy).Contents (Elt Ideal))
    (a12 a13 a14 a15 a16 a17 a18 : (⟨S128, .f32⟩ : BufTy).Contents (Elt Ideal)) : S100000x128.Idx → EReal :=
  stage 100000 (HostAgg.agg1 (net1 a0 a1 a3 a4 a7 a8 a13 a14) a5 a6 a2) (net1 a0 a1 a3 a4 a7 a8 a13 a14) a9 (rowOf a10) (rowOf a15) (rowOf a16)

/-- The pins after the third stage: the program's first result. -/
def pin3 (a0 : (⟨S400000x128, .f32⟩ : BufTy).Contents (Elt Ideal)) (a1 : (⟨S100000x128, .f32⟩ : BufTy).Contents (Elt Ideal)) (a2 : (⟨S800000, .f32⟩ : BufTy).Contents (Elt Ideal))
    (a3 a4 : (⟨S400000, .i32⟩ : BufTy).Contents (Elt Ideal)) (a5 a6 : (⟨S800000, .i32⟩ : BufTy).Contents (Elt Ideal)) (a7 : (⟨S128x128, .f32⟩ : BufTy).Contents (Elt Ideal)) (a8 : (⟨S128, .f32⟩ : BufTy).Contents (Elt Ideal))
    (a9 : (⟨S128x128, .f32⟩ : BufTy).Contents (Elt Ideal)) (a10 : (⟨S128, .f32⟩ : BufTy).Contents (Elt Ideal)) (a11 : (⟨S128x128, .f32⟩ : BufTy).Contents (Elt Ideal))
    (a12 a13 a14 a15 a16 a17 a18 : (⟨S128, .f32⟩ : BufTy).Contents (Elt Ideal)) : S400000x128.Idx → EReal :=
  stage 400000 (HostAgg.agg2 (net2 a0 a1 a2 a3 a4 a5 a6 a7 a8 a9 a10 a11 a12 a13 a14 a15 a16 a17 a18) a4 a3) a0 a11 (rowOf a12) (rowOf a17) (rowOf a18)

end Cert.KernelIdeal.Layer

end
-- ==== Proof.KernelValue.lean ====
/-
  The idealized kernel's two results as functions of its argument arrays.

  Walking @main's boundaries from the launch: the first stretch leaves the first aggregation and the cast vectors, region 0
  turns them into `net1`; the second stretch aggregates `net1`, region 1 turns that into `net2`; the third stretch aggregates
  `net2`, region 2 turns that into `pin3`. No later operation writes `net2`, and nothing ever writes an argument. So every
  execution ends with the first result buffer at `pin3` and the second at `net2` of the launch contents.
-/
import proofs.«166734_j33260226740761_1_alg».proof.Proof.KernelRun
import proofs.«166734_j33260226740761_1_alg».proof.Proof.KernelBlocks0
import proofs.«166734_j33260226740761_1_alg».proof.Proof.KernelBlocks1
import proofs.«166734_j33260226740761_1_alg».proof.Proof.KernelBlocks2
import proofs.«166734_j33260226740761_1_alg».proof.Proof.KernelEntry0
import proofs.«166734_j33260226740761_1_alg».proof.Proof.KernelEntry1
import proofs.«166734_j33260226740761_1_alg».proof.Proof.KernelEntry2
import proofs.«166734_j33260226740761_1_alg».proof.Proof.LayerSpec

set_option maxRecDepth 16384

noncomputable section

namespace Cert.KernelIdeal.Result

open Idealize.ShloMosaic Idealize.ShloMosaic.TcCoe Idealize.SL.Sem
open Cert.KernelIdeal Cert.KernelIdeal.Gen FusedRows Cert.KernelIdeal.Layer

variable (m : (ℓ : Loc nD τ sig) → Buf (Elt Ideal) ℓ) (ρ : Dev nD → PrngReg) (c : Dev nD)

/-- An argument holds its launch contents when region 0 is left: region 0 writes only its result, no stretch writes it. -/
theorem arg4 (r : Ref sig .tc) (hne : ∀ w, Pipeline.arrRef spec0 w ≠ r)
    (h0 : r ∉ Kept.hostOps0_W) (h1 : r ∉ Kept.hostOps0_1_W) (h2 : r ∉ Kept.hostOps0_2_W) :
    W4 m ρ c (Proc.devRef .tc r) = m ((c : Thread nD τ).loc r) :=
  (W4_of_ne m ρ c r hne).trans (Entry0.kept m ρ c r h0 h1 h2)

/-- And when region 1 is left. -/
theorem arg8 (r : Ref sig .tc) (hne1 : ∀ w, Pipeline.arrRef spec1 w ≠ r) (hne0 : ∀ w, Pipeline.arrRef spec0 w ≠ r)
    (g0 : r ∉ Kept.hostOps1_W) (g1 : r ∉ Kept.hostOps1_1_W) (g2 : r ∉ Kept.hostOps1_2_W)
    (h0 : r ∉ Kept.hostOps0_W) (h1 : r ∉ Kept.hostOps0_1_W) (h2 : r ∉ Kept.hostOps0_2_W) :
    W8 m ρ c (Proc.devRef .tc r) = m ((c : Thread nD τ).loc r) :=
  (W8_of_ne m ρ c r hne1).trans ((Kept.W7_of m ρ c r g0 g1 g2).trans (arg4 m ρ c r hne0 h0 h1 h2))

/-- Region 0 leaves `net1` in its result buffer. -/
theorem net1_eq : W4 m ρ c (Proc.devRef .tc main_v21)
    = net1 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg13)) (m ((c : Thread nD τ).loc main_arg14)) := by
  refine (W4_arr m ρ c 6).trans ((Blocks0.final (V3 m ρ) c).trans ?_)
  show stage 100000 (V3 m ρ c main_v17) (V3 m ρ c main_arg1) (V3 m ρ c main_arg7) (V3 m ρ c main_v18) (V3 m ρ c main_v19) (V3 m ρ c main_v20) = _
  rw [Entry0.agg, Entry0.resid, Entry0.weights, Entry0.bias, Entry0.gain, Entry0.offset]
  rfl

/-- Region 1 leaves `net2` in its result buffer. -/
theorem net2_eq : W8 m ρ c (Proc.devRef .tc main_v46) = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W8_arr m ρ c 6).trans ((Blocks1.final (V7 m ρ) c).trans ?_)
  show stage 100000 (V7 m ρ c main_v42) (V7 m ρ c main_v21) (V7 m ρ c main_arg9) (V7 m ρ c main_v43) (V7 m ρ c main_v44) (V7 m ρ c main_v45) = _
  rw [Entry1.agg, Entry1.resid, Entry1.weights, Entry1.bias, Entry1.gain, Entry1.offset, net1_eq,
    arg4 m ρ c main_arg5 (by decide) (by decide) (by decide) (by decide), arg4 m ρ c main_arg6 (by decide) (by decide) (by decide) (by decide), arg4 m ρ c main_arg2 (by decide) (by decide) (by decide) (by decide),
    arg4 m ρ c main_arg9 (by decide) (by decide) (by decide) (by decide), arg4 m ρ c main_arg10 (by decide) (by decide) (by decide) (by decide), arg4 m ρ c main_arg15 (by decide) (by decide) (by decide) (by decide),
    arg4 m ρ c main_arg16 (by decide) (by decide) (by decide) (by decide)]
  rfl

/-- Region 2 leaves `pin3` in its result buffer. -/
theorem pin3_eq : W12 m ρ c (Proc.devRef .tc main_v68) = pin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W12_arr m ρ c 6).trans ((Blocks2.final (V11 m ρ) c).trans ?_)
  show stage 400000 (V11 m ρ c main_v64) (V11 m ρ c main_arg0) (V11 m ρ c main_arg11) (V11 m ρ c main_v65) (V11 m ρ c main_v66) (V11 m ρ c main_v67) = _
  rw [Entry2.agg, Entry2.resid, Entry2.weights, Entry2.bias, Entry2.gain, Entry2.offset, net2_eq,
    arg8 m ρ c main_arg4 (by decide) (by decide) (by decide) (by decide) (by decide) (by decide) (by decide) (by decide), arg8 m ρ c main_arg3 (by decide) (by decide) (by decide) (by decide) (by decide) (by decide) (by decide) (by decide),
    arg8 m ρ c main_arg0 (by decide) (by decide) (by decide) (by decide) (by decide) (by decide) (by decide) (by decide), arg8 m ρ c main_arg11 (by decide) (by decide) (by decide) (by decide) (by decide) (by decide) (by decide) (by decide),
    arg8 m ρ c main_arg12 (by decide) (by decide) (by decide) (by decide) (by decide) (by decide) (by decide) (by decide), arg8 m ρ c main_arg17 (by decide) (by decide) (by decide) (by decide) (by decide) (by decide) (by decide) (by decide),
    arg8 m ρ c main_arg18 (by decide) (by decide) (by decide) (by decide) (by decide) (by decide) (by decide) (by decide)]
  rfl

/-- Nothing after region 1 writes its result: the second result buffer ends at `net2`. -/
theorem net2_final : W12 m ρ c (Proc.devRef .tc main_v46) = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W12_of_ne m ρ c main_v46 (by decide)).trans ((Kept.W11_of m ρ c main_v46 (by decide) (by decide) (by decide)).trans (net2_eq m ρ c))

/-- Every weakly fair execution of the idealized kernel terminates, nothing faulting, with its first result at `pin3` and
    its second at `net2` of the launch contents, and every argument as launched. -/
theorem run : θ_run defs (onTc (τ := τ) (main (F := Ideal))) ⟨m, fun _ => 0, ρ⟩ (fun r => ∀ c : Dev nD,
      r.2.mem ((c.tc : Thread nD τ).loc main_v68) = pin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_v46) = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (pin3_eq m ρ c), (h c).2.1.trans (net2_final m ρ c), (h c).2.2⟩)
    (RunValue.run m ρ)

end Cert.KernelIdeal.Result

end
-- ==== Proof.RefStages.lean ====
/-
  The reference's three dense stages, read off its run one operation at a time.

  After each aggregation the reference applies a `dot_general` with the weights, adds the bias row, adds the rows it
  updates, and normalises and rectifies each row: a sum over the row divided by 128, the deviations, their squares'
  sum divided by 128 plus the epsilon, its reciprocal square root, the gain, the offset, and a maximum with zero. At
  Ideal the `dot_general` and the two reductions are plain sums (the reductions start from the zero word), the
  broadcasts copy an entry along an axis, and every other operation acts entry by entry; so the stage's result at
  (r, c) is `FusedRows.row` of row r of its two inputs. The aggregation feeding a stage stays folded throughout.
-/
import proofs.«166734_j33260226740761_1_alg».proof.Proof.RefRead
import proofs.«166734_j33260226740761_1_alg».proof.Proof.StageSpec

noncomputable section

namespace Cert.ReferenceIdeal.Stages

open Idealize.ShloMosaic Idealize.ShloMosaic.ValueIdx Cert.ReferenceIdeal Cert.ReferenceIdeal.Read FusedRows

/-! ## Stage 1: `val_main_v47` from `val_main_v17` -/

namespace Stage1

variable (x0 : (⟨S400000x128, .f32⟩ : BufTy).Contents (Elt Ideal)) (x1 : (⟨S100000x128, .f32⟩ : BufTy).Contents (Elt Ideal)) (x2 : (⟨S800000, .f32⟩ : BufTy).Contents (Elt Ideal))
  (x3 x4 : (⟨S400000, .i32⟩ : BufTy).Contents (Elt Ideal)) (x5 x6 : (⟨S800000, .i32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))
  (x12 x13 x14 x15 x16 x17 x18 : (⟨S128, .f32⟩ : BufTy).Contents (Elt Ideal))

theorem lidx_eq (r : Fin 100000) (c k : Fin 128) : lidx_main_v18 (ix2 r c) k = ix2 r k :=
  funext fun a => Fin.ext (by match a with | ⟨0, _⟩ => rfl | ⟨1, _⟩ => rfl)
theorem ridx_eq (r : Fin 100000) (c k : Fin 128) : ridx_main_v18 (ix2 r c) k = ix2 k c :=
  funext fun a => Fin.ext (by match a with | ⟨0, _⟩ => rfl | ⟨1, _⟩ => rfl)
theorem bias_idx (r : Fin 100000) (c : Fin 128) : idx_main_v19 (idx_main_v20 (ix2 r c)) = ix1 c :=
  funext fun a => Fin.ext (by match a with | ⟨0, _⟩ => rfl)
theorem gain_idx (r : Fin 100000) (c : Fin 128) : idx_main_v41 (idx_main_v42 (ix2 r c)) = ix1 c :=
  funext fun a => Fin.ext (by match a with | ⟨0, _⟩ => rfl)
theorem offset_idx (r : Fin 100000) (c : Fin 128) : idx_main_v44 (idx_main_v45 (ix2 r c)) = ix1 c :=
  funext fun a => Fin.ext (by match a with | ⟨0, _⟩ => rfl)
theorem sum1_idx (r : Fin 100000) (u : Fin 1) (k : Fin 128) : idx_main_v23 (idx_main_v24 (ix2 r u)) k = ix2 r k :=
  funext fun a => Fin.ext (by match a with | ⟨0, _⟩ => rfl | ⟨1, _⟩ => rfl)
theorem sum2_idx (r : Fin 100000) (u : Fin 1) (k : Fin 128) : idx_main_v30 (idx_main_v31 (ix2 r u)) k = ix2 r k :=
  funext fun a => Fin.ext (by match a with | ⟨0, _⟩ => rfl | ⟨1, _⟩ => rfl)
theorem col27_idx (r : Fin 100000) (c : Fin 128) : idx_main_v27 (ix2 r c) = ix2 r (0 : Fin 1) :=
  funext fun a => Fin.ext (by match a with | ⟨0, _⟩ => rfl | ⟨1, _⟩ => rfl)
theorem col34_idx (r : Fin 100000) (c : Fin 128) : idx_main_v34 (ix2 r c) = ix2 r (0 : Fin 1) :=
  funext fun a => Fin.ext (by match a with | ⟨0, _⟩ => rfl | ⟨1, _⟩ => rfl)
theorem col39_idx (r : Fin 100000) (c : Fin 128) : idx_main_v39 (ix2 r c) = ix2 r (0 : Fin 1) :=
  funext fun a => Fin.ext (by match a with | ⟨0, _⟩ => rfl | ⟨1, _⟩ => rfl)

/-- The rows the normalisation is applied to, at (r, c): the residual plus the dense layer of row r of the aggregate. -/
theorem pre_apply (r : Fin 100000) (c : Fin 128) :
    val_main_v22 (F := Ideal) x0 x1 x3 x4 x7 x8 (ix2 r c)
      = pre (fun k => (val_main_v17 (F := Ideal) x0 x3 x4) (ix2 r k)) (fun k c' => x7 (ix2 k c')) (fun c' => x8 (ix1 c')) (fun c' => x1 (ix2 r c')) c := by
  rw [val_main_v22_apply, val_main_v21_apply, val_main_v18_apply, val_main_v20_apply, val_main_v19_apply]
  simp only [lidx_eq, ridx_eq, bias_idx]
  rfl

/-- The mean column at (r, u). -/
theorem mean_apply (r : Fin 100000) (u : Fin 1) : val_main_v26 (F := Ideal) x0 x1 x3 x4 x7 x8 (ix2 r u) = mean (fun k => (val_main_v22 (F := Ideal) x0 x1 x3 x4 x7 x8) (ix2 r k)) := by
  rw [val_main_v26_apply, val_main_v24_apply, val_main_v23_apply, val_main_v25_apply, val_main_cst_5_apply, val_main_cst_4_apply]
  simp only [sum1_idx]
  show Ideal.div (Ideal.ofBits .f32 0x00000000#32 + ∑ k : Fin 128, (val_main_v22 (F := Ideal) x0 x1 x3 x4 x7 x8) (ix2 r k)) (Ideal.ofBits .f32 0x43000000#32) = _
  rw [Ideal.ofBits_zero_f32, zero_add]
  rfl

/-- The deviation at (r, c), in both places the program computes it. -/
theorem dev_apply (r : Fin 100000) (c : Fin 128) : val_main_v28 (F := Ideal) x0 x1 x3 x4 x7 x8 (ix2 r c) = (val_main_v22 (F := Ideal) x0 x1 x3 x4 x7 x8) (ix2 r c) - mean (fun k => (val_main_v22 (F := Ideal) x0 x1 x3 x4 x7 x8) (ix2 r k)) := by
  rw [val_main_v28_apply, val_main_v27_apply, col27_idx, mean_apply]
  rfl
theorem dev'_apply (r : Fin 100000) (c : Fin 128) : val_main_v35 (F := Ideal) x0 x1 x3 x4 x7 x8 (ix2 r c) = (val_main_v22 (F := Ideal) x0 x1 x3 x4 x7 x8) (ix2 r c) - mean (fun k => (val_main_v22 (F := Ideal) x0 x1 x3 x4 x7 x8) (ix2 r k)) := by
  rw [val_main_v35_apply, val_main_v34_apply, col34_idx, mean_apply]
  rfl

/-- The variance column at (r, u). -/
theorem var_apply (r : Fin 100000) (u : Fin 1) :
    val_main_v33 (F := Ideal) x0 x1 x3 x4 x7 x8 (ix2 r u) = mean (fun k => ((val_main_v22 (F := Ideal) x0 x1 x3 x4 x7 x8) (ix2 r k) - mean (fun k => (val_main_v22 (F := Ideal) x0 x1 x3 x4 x7 x8) (ix2 r k))) * ((val_main_v22 (F := Ideal) x0 x1 x3 x4 x7 x8) (ix2 r k) - mean (fun k => (val_main_v22 (F := Ideal) x0 x1 x3 x4 x7 x8) (ix2 r k)))) := by
  rw [val_main_v33_apply, val_main_v31_apply, val_main_v30_apply, val_main_v32_apply, val_main_cst_7_apply, val_main_cst_6_apply]
  simp only [sum2_idx, val_main_v29_apply, dev_apply]
  show Ideal.div (Ideal.ofBits .f32 0x00000000#32 + ∑ k : Fin 128, _) (Ideal.ofBits .f32 0x43000000#32) = _
  rw [Ideal.ofBits_zero_f32, zero_add]
  rfl

/-- The stage's result at (r, c): the normalised and rectified row r, at c. -/
theorem out_apply (r : Fin 100000) (c : Fin 128) :
    val_main_v47 (F := Ideal) x0 x1 x3 x4 x7 x8 x13 x14 (ix2 r c)
      = normRelu (fun k => (val_main_v22 (F := Ideal) x0 x1 x3 x4 x7 x8) (ix2 r k)) (fun c' => x13 (ix1 c')) (fun c' => x14 (ix1 c')) c := by
  rw [val_main_v47_apply, val_main_v46_apply, val_main_v43_apply, val_main_v40_apply, dev'_apply, val_main_v39_apply, col39_idx, val_main_v38_apply, val_main_v37_apply, var_apply, val_main_v36_apply, val_main_cst_8_apply,
    val_main_v42_apply, val_main_v41_apply, gain_idx, val_main_v45_apply, val_main_v44_apply, offset_idx, val_main_call1_v0_apply, val_main_call1_cst_apply]
  rfl

/-- The stage as one function of whole arrays. -/
theorem stage_eq : val_main_v47 (F := Ideal) x0 x1 x3 x4 x7 x8 x13 x14 = stageV 100000 (val_main_v17 (F := Ideal) x0 x3 x4) x1 x7 x8 x13 x14 := by
  funext i
  obtain ⟨r, c, rfl⟩ : ∃ (r : Fin 100000) (c : Fin 128), i = ix2 r c := ⟨i 0, i 1, eq_ix2 i⟩
  refine (out_apply x0 x1 x3 x4 x7 x8 x13 x14 r c).trans ?_
  exact congrArg (fun f => normRelu f (fun c' => x13 (ix1 c')) (fun c' => x14 (ix1 c')) c)
    (funext fun k => pre_apply x0 x1 x3 x4 x7 x8 r k)

end Stage1

/-! ## Stage 2: `val_main_v98` from `val_main_v68` -/

namespace Stage2

variable (x0 : (⟨S400000x128, .f32⟩ : BufTy).Contents (Elt Ideal)) (x1 : (⟨S100000x128, .f32⟩ : BufTy).Contents (Elt Ideal)) (x2 : (⟨S800000, .f32⟩ : BufTy).Contents (Elt Ideal))
  (x3 x4 : (⟨S400000, .i32⟩ : BufTy).Contents (Elt Ideal)) (x5 x6 : (⟨S800000, .i32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))
  (x12 x13 x14 x15 x16 x17 x18 : (⟨S128, .f32⟩ : BufTy).Contents (Elt Ideal))

theorem lidx_eq (r : Fin 100000) (c k : Fin 128) : lidx_main_v69 (ix2 r c) k = ix2 r k :=
  funext fun a => Fin.ext (by match a with | ⟨0, _⟩ => rfl | ⟨1, _⟩ => rfl)
theorem ridx_eq (r : Fin 100000) (c k : Fin 128) : ridx_main_v69 (ix2 r c) k = ix2 k c :=
  funext fun a => Fin.ext (by match a with | ⟨0, _⟩ => rfl | ⟨1, _⟩ => rfl)
theorem bias_idx (r : Fin 100000) (c : Fin 128) : idx_main_v70 (idx_main_v71 (ix2 r c)) = ix1 c :=
  funext fun a => Fin.ext (by match a with | ⟨0, _⟩ => rfl)
theorem gain_idx (r : Fin 100000) (c : Fin 128) : idx_main_v92 (idx_main_v93 (ix2 r c)) = ix1 c :=
  funext fun a => Fin.ext (by match a with | ⟨0, _⟩ => rfl)
theorem offset_idx (r : Fin 100000) (c : Fin 128) : idx_main_v95 (idx_main_v96 (ix2 r c)) = ix1 c :=
  funext fun a => Fin.ext (by match a with | ⟨0, _⟩ => rfl)
theorem sum1_idx (r : Fin 100000) (u : Fin 1) (k : Fin 128) : idx_main_v74 (idx_main_v75 (ix2 r u)) k = ix2 r k :=
  funext fun a => Fin.ext (by match a with | ⟨0, _⟩ => rfl | ⟨1, _⟩ => rfl)
theorem sum2_idx (r : Fin 100000) (u : Fin 1) (k : Fin 128) : idx_main_v81 (idx_main_v82 (ix2 r u)) k = ix2 r k :=
  funext fun a => Fin.ext (by match a with | ⟨0, _⟩ => rfl | ⟨1, _⟩ => rfl)
theorem col27_idx (r : Fin 100000) (c : Fin 128) : idx_main_v78 (ix2 r c) = ix2 r (0 : Fin 1) :=
  funext fun a => Fin.ext (by match a with | ⟨0, _⟩ => rfl | ⟨1, _⟩ => rfl)
theorem col34_idx (r : Fin 100000) (c : Fin 128) : idx_main_v85 (ix2 r c) = ix2 r (0 : Fin 1) :=
  funext fun a => Fin.ext (by match a with | ⟨0, _⟩ => rfl | ⟨1, _⟩ => rfl)
theorem col39_idx (r : Fin 100000) (c : Fin 128) : idx_main_v90 (ix2 r c) = ix2 r (0 : Fin 1) :=
  funext fun a => Fin.ext (by match a with | ⟨0, _⟩ => rfl | ⟨1, _⟩ => rfl)

/-- The rows the normalisation is applied to, at (r, c): the residual plus the dense layer of row r of the aggregate. -/
theorem pre_apply (r : Fin 100000) (c : Fin 128) :
    val_main_v73 (F := Ideal) x0 x1 x2 x3 x4 x5 x6 x7 x8 x9 x10 x13 x14 (ix2 r c)
      = pre (fun k => (val_main_v68 (F := Ideal) x0 x1 x2 x3 x4 x5 x6 x7 x8 x13 x14) (ix2 r k)) (fun k c' => x9 (ix2 k c')) (fun c' => x10 (ix1 c')) (fun c' => (val_main_v47 (F := Ideal) x0 x1 x3 x4 x7 x8 x13 x14) (ix2 r c')) c := by
  rw [val_main_v73_apply, val_main_v72_apply, val_main_v69_apply, val_main_v71_apply, val_main_v70_apply]
  simp only [lidx_eq, ridx_eq, bias_idx]
  rfl

/-- The mean column at (r, u). -/
theorem mean_apply (r : Fin 100000) (u : Fin 1) : val_main_v77 (F := Ideal) x0 x1 x2 x3 x4 x5 x6 x7 x8 x9 x10 x13 x14 (ix2 r u) = mean (fun k => (val_main_v73 (F := Ideal) x0 x1 x2 x3 x4 x5 x6 x7 x8 x9 x10 x13 x14) (ix2 r k)) := by
  rw [val_main_v77_apply, val_main_v75_apply, val_main_v74_apply, val_main_v76_apply, val_main_cst_16_apply, val_main_cst_15_apply]
  simp only [sum1_idx]
  show Ideal.div (Ideal.ofBits .f32 0x00000000#32 + ∑ k : Fin 128, (val_main_v73 (F := Ideal) x0 x1 x2 x3 x4 x5 x6 x7 x8 x9 x10 x13 x14) (ix2 r k)) (Ideal.ofBits .f32 0x43000000#32) = _
  rw [Ideal.ofBits_zero_f32, zero_add]
  rfl

/-- The deviation at (r, c), in both places the program computes it. -/
theorem dev_apply (r : Fin 100000) (c : Fin 128) : val_main_v79 (F := Ideal) x0 x1 x2 x3 x4 x5 x6 x7 x8 x9 x10 x13 x14 (ix2 r c) = (val_main_v73 (F := Ideal) x0 x1 x2 x3 x4 x5 x6 x7 x8 x9 x10 x13 x14) (ix2 r c) - mean (fun k => (val_main_v73 (F := Ideal) x0 x1 x2 x3 x4 x5 x6 x7 x8 x9 x10 x13 x14) (ix2 r k)) := by
  rw [val_main_v79_apply, val_main_v78_apply, col27_idx, mean_apply]
  rfl
theorem dev'_apply (r : Fin 100000) (c : Fin 128) : val_main_v86 (F := Ideal) x0 x1 x2 x3 x4 x5 x6 x7 x8 x9 x10 x13 x14 (ix2 r c) = (val_main_v73 (F := Ideal) x0 x1 x2 x3 x4 x5 x6 x7 x8 x9 x10 x13 x14) (ix2 r c) - mean (fun k => (val_main_v73 (F := Ideal) x0 x1 x2 x3 x4 x5 x6 x7 x8 x9 x10 x13 x14) (ix2 r k)) := by
  rw [val_main_v86_apply, val_main_v85_apply, col34_idx, mean_apply]
  rfl

/-- The variance column at (r, u). -/
theorem var_apply (r : Fin 100000) (u : Fin 1) :
    val_main_v84 (F := Ideal) x0 x1 x2 x3 x4 x5 x6 x7 x8 x9 x10 x13 x14 (ix2 r u) = mean (fun k => ((val_main_v73 (F := Ideal) x0 x1 x2 x3 x4 x5 x6 x7 x8 x9 x10 x13 x14) (ix2 r k) - mean (fun k => (val_main_v73 (F := Ideal) x0 x1 x2 x3 x4 x5 x6 x7 x8 x9 x10 x13 x14) (ix2 r k))) * ((val_main_v73 (F := Ideal) x0 x1 x2 x3 x4 x5 x6 x7 x8 x9 x10 x13 x14) (ix2 r k) - mean (fun k => (val_main_v73 (F := Ideal) x0 x1 x2 x3 x4 x5 x6 x7 x8 x9 x10 x13 x14) (ix2 r k)))) := by
  rw [val_main_v84_apply, val_main_v82_apply, val_main_v81_apply, val_main_v83_apply, val_main_cst_18_apply, val_main_cst_17_apply]
  simp only [sum2_idx, val_main_v80_apply, dev_apply]
  show Ideal.div (Ideal.ofBits .f32 0x00000000#32 + ∑ k : Fin 128, _) (Ideal.ofBits .f32 0x43000000#32) = _
  rw [Ideal.ofBits_zero_f32, zero_add]
  rfl

/-- The stage's result at (r, c): the normalised and rectified row r, at c. -/
theorem out_apply (r : Fin 100000) (c : Fin 128) :
    val_main_v98 (F := Ideal) x0 x1 x2 x3 x4 x5 x6 x7 x8 x9 x10 x13 x14 x15 x16 (ix2 r c)
      = normRelu (fun k => (val_main_v73 (F := Ideal) x0 x1 x2 x3 x4 x5 x6 x7 x8 x9 x10 x13 x14) (ix2 r k)) (fun c' => x15 (ix1 c')) (fun c' => x16 (ix1 c')) c := by
  rw [val_main_v98_apply, val_main_v97_apply, val_main_v94_apply, val_main_v91_apply, dev'_apply, val_main_v90_apply, col39_idx, val_main_v89_apply, val_main_v88_apply, var_apply, val_main_v87_apply, val_main_cst_19_apply,
    val_main_v93_apply, val_main_v92_apply, gain_idx, val_main_v96_apply, val_main_v95_apply, offset_idx, val_main_call3_v0_apply, val_main_call3_cst_apply]
  rfl

/-- The stage as one function of whole arrays. -/
theorem stage_eq : val_main_v98 (F := Ideal) x0 x1 x2 x3 x4 x5 x6 x7 x8 x9 x10 x13 x14 x15 x16 = stageV 100000 (val_main_v68 (F := Ideal) x0 x1 x2 x3 x4 x5 x6 x7 x8 x13 x14) (val_main_v47 (F := Ideal) x0 x1 x3 x4 x7 x8 x13 x14) x9 x10 x15 x16 := by
  funext i
  obtain ⟨r, c, rfl⟩ : ∃ (r : Fin 100000) (c : Fin 128), i = ix2 r c := ⟨i 0, i 1, eq_ix2 i⟩
  refine (out_apply x0 x1 x2 x3 x4 x5 x6 x7 x8 x9 x10 x13 x14 x15 x16 r c).trans ?_
  exact congrArg (fun f => normRelu f (fun c' => x15 (ix1 c')) (fun c' => x16 (ix1 c')) c)
    (funext fun k => pre_apply x0 x1 x2 x3 x4 x5 x6 x7 x8 x9 x10 x13 x14 r k)

end Stage2

/-! ## Stage 3: `val_main_v146` from `val_main_v116` -/

namespace Stage3

variable (x0 : (⟨S400000x128, .f32⟩ : BufTy).Contents (Elt Ideal)) (x1 : (⟨S100000x128, .f32⟩ : BufTy).Contents (Elt Ideal)) (x2 : (⟨S800000, .f32⟩ : BufTy).Contents (Elt Ideal))
  (x3 x4 : (⟨S400000, .i32⟩ : BufTy).Contents (Elt Ideal)) (x5 x6 : (⟨S800000, .i32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))
  (x12 x13 x14 x15 x16 x17 x18 : (⟨S128, .f32⟩ : BufTy).Contents (Elt Ideal))

theorem lidx_eq (r : Fin 400000) (c k : Fin 128) : lidx_main_v117 (ix2 r c) k = ix2 r k :=
  funext fun a => Fin.ext (by match a with | ⟨0, _⟩ => rfl | ⟨1, _⟩ => rfl)
theorem ridx_eq (r : Fin 400000) (c k : Fin 128) : ridx_main_v117 (ix2 r c) k = ix2 k c :=
  funext fun a => Fin.ext (by match a with | ⟨0, _⟩ => rfl | ⟨1, _⟩ => rfl)
theorem bias_idx (r : Fin 400000) (c : Fin 128) : idx_main_v118 (idx_main_v119 (ix2 r c)) = ix1 c :=
  funext fun a => Fin.ext (by match a with | ⟨0, _⟩ => rfl)
theorem gain_idx (r : Fin 400000) (c : Fin 128) : idx_main_v140 (idx_main_v141 (ix2 r c)) = ix1 c :=
  funext fun a => Fin.ext (by match a with | ⟨0, _⟩ => rfl)
theorem offset_idx (r : Fin 400000) (c : Fin 128) : idx_main_v143 (idx_main_v144 (ix2 r c)) = ix1 c :=
  funext fun a => Fin.ext (by match a with | ⟨0, _⟩ => rfl)
theorem sum1_idx (r : Fin 400000) (u : Fin 1) (k : Fin 128) : idx_main_v122 (idx_main_v123 (ix2 r u)) k = ix2 r k :=
  funext fun a => Fin.ext (by match a with | ⟨0, _⟩ => rfl | ⟨1, _⟩ => rfl)
theorem sum2_idx (r : Fin 400000) (u : Fin 1) (k : Fin 128) : idx_main_v129 (idx_main_v130 (ix2 r u)) k = ix2 r k :=
  funext fun a => Fin.ext (by match a with | ⟨0, _⟩ => rfl | ⟨1, _⟩ => rfl)
theorem col27_idx (r : Fin 400000) (c : Fin 128) : idx_main_v126 (ix2 r c) = ix2 r (0 : Fin 1) :=
  funext fun a => Fin.ext (by match a with | ⟨0, _⟩ => rfl | ⟨1, _⟩ => rfl)
theorem col34_idx (r : Fin 400000) (c : Fin 128) : idx_main_v133 (ix2 r c) = ix2 r (0 : Fin 1) :=
  funext fun a => Fin.ext (by match a with | ⟨0, _⟩ => rfl | ⟨1, _⟩ => rfl)
theorem col39_idx (r : Fin 400000) (c : Fin 128) : idx_main_v138 (ix2 r c) = ix2 r (0 : Fin 1) :=
  funext fun a => Fin.ext (by match a with | ⟨0, _⟩ => rfl | ⟨1, _⟩ => rfl)

/-- The rows the normalisation is applied to, at (r, c): the residual plus the dense layer of row r of the aggregate. -/
theorem pre_apply (r : Fin 400000) (c : Fin 128) :
    val_main_v121 (F := Ideal) x0 x1 x2 x3 x4 x5 x6 x7 x8 x9 x10 x11 x12 x13 x14 x15 x16 (ix2 r c)
      = pre (fun k => (val_main_v116 (F := Ideal) x0 x1 x2 x3 x4 x5 x6 x7 x8 x9 x10 x13 x14 x15 x16) (ix2 r k)) (fun k c' => x11 (ix2 k c')) (fun c' => x12 (ix1 c')) (fun c' => x0 (ix2 r c')) c := by
  rw [val_main_v121_apply, val_main_v120_apply, val_main_v117_apply, val_main_v119_apply, val_main_v118_apply]
  simp only [lidx_eq, ridx_eq, bias_idx]
  rfl

/-- The mean column at (r, u). -/
theorem mean_apply (r : Fin 400000) (u : Fin 1) : val_main_v125 (F := Ideal) x0 x1 x2 x3 x4 x5 x6 x7 x8 x9 x10 x11 x12 x13 x14 x15 x16 (ix2 r u) = mean (fun k => (val_main_v121 (F := Ideal) x0 x1 x2 x3 x4 x5 x6 x7 x8 x9 x10 x11 x12 x13 x14 x15 x16) (ix2 r k)) := by
  rw [val_main_v125_apply, val_main_v123_apply, val_main_v122_apply, val_main_v124_apply, val_main_cst_27_apply, val_main_cst_26_apply]
  simp only [sum1_idx]
  show Ideal.div (Ideal.ofBits .f32 0x00000000#32 + ∑ k : Fin 128, (val_main_v121 (F := Ideal) x0 x1 x2 x3 x4 x5 x6 x7 x8 x9 x10 x11 x12 x13 x14 x15 x16) (ix2 r k)) (Ideal.ofBits .f32 0x43000000#32) = _
  rw [Ideal.ofBits_zero_f32, zero_add]
  rfl

/-- The deviation at (r, c), in both places the program computes it. -/
theorem dev_apply (r : Fin 400000) (c : Fin 128) : val_main_v127 (F := Ideal) x0 x1 x2 x3 x4 x5 x6 x7 x8 x9 x10 x11 x12 x13 x14 x15 x16 (ix2 r c) = (val_main_v121 (F := Ideal) x0 x1 x2 x3 x4 x5 x6 x7 x8 x9 x10 x11 x12 x13 x14 x15 x16) (ix2 r c) - mean (fun k => (val_main_v121 (F := Ideal) x0 x1 x2 x3 x4 x5 x6 x7 x8 x9 x10 x11 x12 x13 x14 x15 x16) (ix2 r k)) := by
  rw [val_main_v127_apply, val_main_v126_apply, col27_idx, mean_apply]
  rfl
theorem dev'_apply (r : Fin 400000) (c : Fin 128) : val_main_v134 (F := Ideal) x0 x1 x2 x3 x4 x5 x6 x7 x8 x9 x10 x11 x12 x13 x14 x15 x16 (ix2 r c) = (val_main_v121 (F := Ideal) x0 x1 x2 x3 x4 x5 x6 x7 x8 x9 x10 x11 x12 x13 x14 x15 x16) (ix2 r c) - mean (fun k => (val_main_v121 (F := Ideal) x0 x1 x2 x3 x4 x5 x6 x7 x8 x9 x10 x11 x12 x13 x14 x15 x16) (ix2 r k)) := by
  rw [val_main_v134_apply, val_main_v133_apply, col34_idx, mean_apply]
  rfl

/-- The variance column at (r, u). -/
theorem var_apply (r : Fin 400000) (u : Fin 1) :
    val_main_v132 (F := Ideal) x0 x1 x2 x3 x4 x5 x6 x7 x8 x9 x10 x11 x12 x13 x14 x15 x16 (ix2 r u) = mean (fun k => ((val_main_v121 (F := Ideal) x0 x1 x2 x3 x4 x5 x6 x7 x8 x9 x10 x11 x12 x13 x14 x15 x16) (ix2 r k) - mean (fun k => (val_main_v121 (F := Ideal) x0 x1 x2 x3 x4 x5 x6 x7 x8 x9 x10 x11 x12 x13 x14 x15 x16) (ix2 r k))) * ((val_main_v121 (F := Ideal) x0 x1 x2 x3 x4 x5 x6 x7 x8 x9 x10 x11 x12 x13 x14 x15 x16) (ix2 r k) - mean (fun k => (val_main_v121 (F := Ideal) x0 x1 x2 x3 x4 x5 x6 x7 x8 x9 x10 x11 x12 x13 x14 x15 x16) (ix2 r k)))) := by
  rw [val_main_v132_apply, val_main_v130_apply, val_main_v129_apply, val_main_v131_apply, val_main_cst_29_apply, val_main_cst_28_apply]
  simp only [sum2_idx, val_main_v128_apply, dev_apply]
  show Ideal.div (Ideal.ofBits .f32 0x00000000#32 + ∑ k : Fin 128, _) (Ideal.ofBits .f32 0x43000000#32) = _
  rw [Ideal.ofBits_zero_f32, zero_add]
  rfl

/-- The stage's result at (r, c): the normalised and rectified row r, at c. -/
theorem out_apply (r : Fin 400000) (c : Fin 128) :
    val_main_v146 (F := Ideal) x0 x1 x2 x3 x4 x5 x6 x7 x8 x9 x10 x11 x12 x13 x14 x15 x16 x17 x18 (ix2 r c)
      = normRelu (fun k => (val_main_v121 (F := Ideal) x0 x1 x2 x3 x4 x5 x6 x7 x8 x9 x10 x11 x12 x13 x14 x15 x16) (ix2 r k)) (fun c' => x17 (ix1 c')) (fun c' => x18 (ix1 c')) c := by
  rw [val_main_v146_apply, val_main_v145_apply, val_main_v142_apply, val_main_v139_apply, dev'_apply, val_main_v138_apply, col39_idx, val_main_v137_apply, val_main_v136_apply, var_apply, val_main_v135_apply, val_main_cst_30_apply,
    val_main_v141_apply, val_main_v140_apply, gain_idx, val_main_v144_apply, val_main_v143_apply, offset_idx, val_main_call5_v0_apply, val_main_call5_cst_apply]
  rfl

/-- The stage as one function of whole arrays. -/
theorem stage_eq : val_main_v146 (F := Ideal) x0 x1 x2 x3 x4 x5 x6 x7 x8 x9 x10 x11 x12 x13 x14 x15 x16 x17 x18 = stageV 400000 (val_main_v116 (F := Ideal) x0 x1 x2 x3 x4 x5 x6 x7 x8 x9 x10 x13 x14 x15 x16) x0 x11 x12 x17 x18 := by
  funext i
  obtain ⟨r, c, rfl⟩ : ∃ (r : Fin 400000) (c : Fin 128), i = ix2 r c := ⟨i 0, i 1, eq_ix2 i⟩
  refine (out_apply x0 x1 x2 x3 x4 x5 x6 x7 x8 x9 x10 x11 x12 x13 x14 x15 x16 x17 x18 r c).trans ?_
  exact congrArg (fun f => normRelu f (fun c' => x17 (ix1 c')) (fun c' => x18 (ix1 c')) c)
    (funext fun k => pre_apply x0 x1 x2 x3 x4 x5 x6 x7 x8 x9 x10 x11 x12 x13 x14 x15 x16 r k)

end Stage3

end Cert.ReferenceIdeal.Stages

end
-- ==== Proof.RefValue.lean ====
/-
  The idealized reference's two results as the layer's functions of its argument arrays.

  The reference's three aggregations are, operation for operation, the ones the kernel's host code computes (the two
  printed programs spell the same dimension records in their own namespaces); each dense stage is `FusedRows.stageV` of
  its aggregate, and a 128-vector used as a vector is the same as its 1 x 128 cast used as a row. So the reference ends
  with its first result at `pin3` and its second at `net2` of its launch contents.
-/
import proofs.«166734_j33260226740761_1_alg».proof.Proof.RefStages
import proofs.«166734_j33260226740761_1_alg».proof.Proof.LayerSpec

noncomputable section

namespace Cert.ReferenceIdeal.Result

open Idealize.ShloMosaic Idealize.ShloMosaic.TcCoe Idealize.SL.Sem Cert.ReferenceIdeal Cert.ReferenceIdeal.Read FusedRows

section stages
variable (x0 : (⟨S400000x128, .f32⟩ : BufTy).Contents (Elt Ideal)) (x1 : (⟨S100000x128, .f32⟩ : BufTy).Contents (Elt Ideal)) (x2 : (⟨S800000, .f32⟩ : BufTy).Contents (Elt Ideal))
  (x3 x4 : (⟨S400000, .i32⟩ : BufTy).Contents (Elt Ideal)) (x5 x6 : (⟨S800000, .i32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x128, .f32⟩ : BufTy).Contents (Elt Ideal))
  (x12 x13 x14 x15 x16 x17 x18 : (⟨S128, .f32⟩ : BufTy).Contents (Elt Ideal))

/-- The three aggregations are the kernel's. -/
theorem agg0_eq : val_main_v17 (F := Ideal) x0 x3 x4 = Cert.KernelIdeal.HostAgg.agg0 x0 x3 x4 := rfl
theorem agg1_eq : val_main_v68 (F := Ideal) x0 x1 x2 x3 x4 x5 x6 x7 x8 x13 x14
    = Cert.KernelIdeal.HostAgg.agg1 (val_main_v47 (F := Ideal) x0 x1 x3 x4 x7 x8 x13 x14) x5 x6 x2 := rfl
theorem agg2_eq : val_main_v116 (F := Ideal) x0 x1 x2 x3 x4 x5 x6 x7 x8 x9 x10 x13 x14 x15 x16
    = Cert.KernelIdeal.HostAgg.agg2 (val_main_v98 (F := Ideal) x0 x1 x2 x3 x4 x5 x6 x7 x8 x9 x10 x13 x14 x15 x16) x4 x3 := rfl

/-- The nets after the first stage. -/
theorem net1_eq : val_main_v47 (F := Ideal) x0 x1 x3 x4 x7 x8 x13 x14 = Cert.KernelIdeal.Layer.net1 x0 x1 x3 x4 x7 x8 x13 x14 := by
  rw [Stages.Stage1.stage_eq, agg0_eq]
  unfold Cert.KernelIdeal.Layer.net1 Cert.KernelIdeal.Layer.rowOf
  exact (stage_rows 100000 _ _ _ _ _ _ _).symm

/-- The nets after the second stage. -/
theorem net2_eq : val_main_v98 (F := Ideal) x0 x1 x2 x3 x4 x5 x6 x7 x8 x9 x10 x13 x14 x15 x16 = Cert.KernelIdeal.Layer.net2 x0 x1 x2 x3 x4 x5 x6 x7 x8 x9 x10 x11 x12 x13 x14 x15 x16 x17 x18 := by
  rw [Stages.Stage2.stage_eq, agg1_eq, net1_eq]
  unfold Cert.KernelIdeal.Layer.net2 Cert.KernelIdeal.Layer.rowOf
  exact (stage_rows 100000 _ _ _ _ _ _ _).symm

/-- The pins after the third stage. -/
theorem pin3_eq : val_main_v146 (F := Ideal) x0 x1 x2 x3 x4 x5 x6 x7 x8 x9 x10 x11 x12 x13 x14 x15 x16 x17 x18 = Cert.KernelIdeal.Layer.pin3 x0 x1 x2 x3 x4 x5 x6 x7 x8 x9 x10 x11 x12 x13 x14 x15 x16 x17 x18 := by
  rw [Stages.Stage3.stage_eq, agg2_eq, net2_eq]
  unfold Cert.KernelIdeal.Layer.pin3 Cert.KernelIdeal.Layer.rowOf
  exact (stage_rows 400000 _ _ _ _ _ _ _).symm

end stages

/-- Every weakly fair execution of the idealized reference terminates, nothing faulting, with its first result at `pin3`
    and its second at `net2` of the launch contents, and every argument as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v146) = Cert.KernelIdeal.Layer.pin3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v98) = Cert.KernelIdeal.Layer.net2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨(h c).1.trans ((val_main_v146_eq m c).trans (pin3_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))),
       (h c).2.1.trans ((val_main_v98_eq m c).trans (net2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))),
       (h c).2.2⟩)
    (Cert.ReferenceIdeal.Value.run (F := Ideal) m ρ)

end Cert.ReferenceIdeal.Result

end
-- ==== Proof.lean ====
/-
  A three-stage graph layer (pins to nets, nets to nets with edge weights, nets back to pins), each stage a mean
  aggregation over edges followed by a dense layer, a residual sum, a layer normalisation and a rectifier, proved equal
  on the extended reals to its plain reference.

  The kernel computes the three aggregations with the host's gather and scatter-add, exactly as the reference does, and
  each dense tail in a region tiled over blocks of 4000 rows: a matrix product of bf16-cast operands into a zero
  accumulator, the bias, the residual, two lane sums divided by 128, a reciprocal square root, the gain, the offset and a
  maximum with zero. At Ideal a change of float format is the identity and the matrix product and the lane sums are
  plain sums, so a block's result at (row, column) is one function, `FusedRows.row`, of that row of the two inputs: the
  rows do not mix, the blocks tile the rows, and after a region its result array is `FusedRows.stage` of the arrays it
  was entered with. The reference's `dot_general`, reductions and broadcasts read the same function row by row. Both
  programs therefore end at `Layer.pin3` and `Layer.net2` of their argument arrays: the same term, in which the two
  sides' literals (128, the epsilon, 0) are the same words and are never evaluated. Nothing is assumed finite: no law of
  the extended reals beyond 0 + s = s for the reductions' zero start is used, so the precondition is not opened.
  The ideal pass rewrote nothing, so `preserves` is `True`; the word-level kernel needs its frame only.
-/
import proofs.«166734_j33260226740761_1_alg».proof.Defs
import proofs.«166734_j33260226740761_1_alg».proof.Proof.Gen.Kernel
import proofs.«166734_j33260226740761_1_alg».proof.Proof.Gen.Kernel.Frame
import proofs.«166734_j33260226740761_1_alg».proof.Proof.Gen.KernelIdeal
import proofs.«166734_j33260226740761_1_alg».proof.Proof.Gen.KernelIdeal.Frame
import proofs.«166734_j33260226740761_1_alg».proof.Proof.Gen.ReferenceIdeal
import proofs.«166734_j33260226740761_1_alg».proof.Proof.Gen.Pre_finite_inputs
import proofs.«166734_j33260226740761_1_alg».proof.Proof.KernelValue
import proofs.«166734_j33260226740761_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

-- the agreement equations relate buffers of the two programs, whose types meet only after unfolding both signatures
set_option maxHeartbeats 4000000 in
/-- Both idealized programs end at `pin3` and `net2` of argument arrays that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun r h c => ?_) (Cert.ReferenceIdeal.Result.run m' ρ')
  obtain ⟨e0, e1, e2, e3, e4, e5, e6, e7, e8, e9, e10, e11, e12, e13, e14, e15, e16, e17, e18⟩ := hagree c
  refine ⟨(h c).1.trans ?_, (h c).2.1.trans ?_, (h c).2.2⟩
  · rw [e0, e1, e2, e3, e4, e5, e6, e7, e8, e9, e10, e11, e12, e13, e14, e15, e16, e17, e18]
  · rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
